-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8x32x32 : Shape := ⟨4, ![64, 8, 32, 32]⟩
abbrev S_ : Shape := ⟨0, ![]⟩

class Facts : Prop where
  bcast_S_S64x8x32x32 : S_.BroadcastsInDim S64x8x32x32 (![] : Fin 0 → Fin S64x8x32x32.rank)
  reducesTo_S64x8x32x32_S_d0_1_2_3 : S64x8x32x32.ReducesTo [0, 1, 2, 3] S_
  h_S_ : 0 < S_.numel

variable [Facts]

def fn {F : FTy → Type} [FloatOps F] (main_arg0 : FVec F S64x8x32x32 .f32) : IVec S_ 1 :=
  let main_v0 : FVec F S64x8x32x32 .f32 := Host.absf main_arg0
  let main_cst : FVec F S_ .f32 := constant S_ .f32 0x7F800000#32
  let main_v1 : FVec F S64x8x32x32 .f32 := broadcastInDim S64x8x32x32 ![] bcast_S_S64x8x32x32 main_cst
  let main_v2 : IVec S64x8x32x32 1 := cmpf .olt main_v0 main_v1
  let main_c : IVec S_ 1 := constantI S_ 1 1#1
  let main_v3 : IVec S_ 1 := (fun x v => Host.reduce IntOp.andi x v reducesTo_S64x8x32x32_S_d0_1_2_3 h_S_) main_v2 main_c
  main_v3
-- ==== Kernel.lean ====
abbrev S64x8x32x32 : Shape := ⟨4, ![64, 8, 32, 32]⟩
abbrev S64x8192 : Shape := ⟨2, ![64, 8192]⟩
abbrev S1x8192 : Shape := ⟨2, ![1, 8192]⟩
abbrev S63x8192 : Shape := ⟨2, ![63, 8192]⟩
abbrev S8192 : Shape := ⟨1, ![8192]⟩
abbrev S_ : Shape := ⟨0, ![]⟩
abbrev S8256x8192 : Shape := ⟨2, ![8256, 8192]⟩
abbrev S192x8192 : Shape := ⟨2, ![192, 8192]⟩
abbrev S128x1 : Shape := ⟨2, ![128, 1]⟩
abbrev S128x8192 : Shape := ⟨2, ![128, 8192]⟩
abbrev S192x1 : Shape := ⟨2, ![192, 1]⟩
abbrev S8256x8x32x32 : Shape := ⟨4, ![8256, 8, 32, 32]⟩

abbrev nBuf : Space → Nat
  | .hbm => 24
  | .vmem => 9
  | .smem => 0
  | _ => 0

abbrev bufTy : (tb : Table) → Fin (tcTables nBuf tb) → BufTy
  | .hbm, ⟨0, _⟩ => ⟨S64x8x32x32, .f32⟩
  | .hbm, ⟨1, _⟩ => ⟨S64x8192, .f32⟩
  | .hbm, ⟨2, _⟩ => ⟨S64x8192, .f32⟩
  | .hbm, ⟨3, _⟩ => ⟨S1x8192, .f32⟩
  | .hbm, ⟨4, _⟩ => ⟨S1x8192, .f32⟩
  | .hbm, ⟨5, _⟩ => ⟨S8192, .f32⟩
  | .hbm, ⟨6, _⟩ => ⟨S8192, .i32⟩
  | .hbm, ⟨7, _⟩ => ⟨S_, .i32⟩
  | .hbm, ⟨8, _⟩ => ⟨S_, .i32⟩
  | .hbm, ⟨9, _⟩ => ⟨S8192, .i32⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S1x8192, .i32⟩
  | .hbm, ⟨22, _⟩ => ⟨S8256x8192, .f32⟩
  | .hbm, ⟨23, _⟩ => ⟨S8256x8x32x32, .f32⟩
  | .local _ .vmem, ⟨0, _⟩ => ⟨S64x8192, .f32⟩
  | .local _ .vmem, ⟨1, _⟩ => ⟨S64x8192, .f32⟩
  | .local _ .vmem, ⟨2, _⟩ => ⟨S1x8192, .f32⟩
  | .local _ .vmem, ⟨3, _⟩ => ⟨S1x8192, .f32⟩
  | .local _ .vmem, ⟨4, _⟩ => ⟨S64x8192, .f32⟩
  | .local _ .vmem, ⟨5, _⟩ => ⟨S1x8192, .i32⟩
  | .local _ .vmem, ⟨6, _⟩ => ⟨S1x8192, .f32⟩
  | .local _ .vmem, ⟨7, _⟩ => ⟨S192x8192, .f32⟩
  | .local _ .vmem, ⟨8, _⟩ => ⟨S192x8192, .f32⟩
  | _, _ => ⟨S64x8x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v2 : Ref sig .tc := ⟨.hbm, 5, rfl⟩
abbrev main_v3 : Ref sig .tc := ⟨.hbm, 6, rfl⟩
abbrev main_call0_call0_c : Ref sig .tc := ⟨.hbm, 7, rfl⟩
abbrev main_call0_call0_v0 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_c_1 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![43], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S64x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x8192 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S192x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S64x8x32x32_S64x8192 : S64x8x32x32.ShapeCasts S64x8192
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  slices_S64x8192_o0_0_S1x8192 : S64x8192.Slices ![0, 0] S1x8192
  slices_S64x8192_o1_0_S63x8192 : S64x8192.Slices ![1, 0] S63x8192
  reduces_S63x8192_S8192 : S63x8192.Reduces [0] S8192
  shapeCasts_S8192_S1x8192 : S8192.ShapeCasts S1x8192
  natLt_1_32 : 1 < 32
  broadcasts_S1x8192_S63x8192 : S1x8192.Broadcasts S63x8192
  concatenates_S1x8192_S63x8192_S64x8192_d0 : Shape.Concatenates [S1x8192, S63x8192] S64x8192 0
  inb_S1x8192_S1x8192_0_0 : ∀ a, (![0, 0] : Fin 2 → Nat) a + S1x8192.size a ≤ S1x8192.size a
  h_S1x8192 : 0 < S1x8192.numel
  shapeCasts_S1x8192_S8192 : S1x8192.ShapeCasts S8192
  bcast_S_S_ : S_.BroadcastsInDim S_ (![] : Fin 0 → Fin S_.rank)
  reduceWindows_S8192_S8192_w8192s1p8191_0 : S8192.ReduceWindows (![8192] : Fin 1 → Nat) ![1] ![8191] ![0] S8192
  h_S_ : 0 < S_.numel
  bcast_S_S8192 : S_.BroadcastsInDim S8192 (![] : Fin 0 → Fin S8192.rank)
  inb_S192x8192_S64x8192_0_0 : ∀ a, (![0, 0] : Fin 2 → Nat) a + S64x8192.size a ≤ S192x8192.size a
  iota_S128x1_d0_w32 : S128x1.Iotas .tc 32 [0]
  shapeCasts_S1x8192_S1x8192 : S1x8192.ShapeCasts S1x8192
  broadcasts_S128x1_S128x8192 : S128x1.Broadcasts S128x8192
  broadcasts_S1x8192_S128x8192 : S1x8192.Broadcasts S128x8192
  inb_S192x8192_S128x8192_64_0 : ∀ a, (![64, 0] : Fin 2 → Nat) a + S128x8192.size a ≤ S192x8192.size a
  h_S128x8192 : 0 < S128x8192.numel
  iota_S192x1_d0_w32 : S192x1.Iotas .tc 32 [0]
  broadcasts_S192x1_S192x8192 : S192x1.Broadcasts S192x8192
  broadcasts_S1x8192_S192x8192 : S1x8192.Broadcasts S192x8192
  inb_S192x8192_S192x8192_0_0 : ∀ a, (![0, 0] : Fin 2 → Nat) a + S192x8192.size a ≤ S192x8192.size a
  h_S192x8192 : 0 < S192x8192.numel
  shapeCasts_S8256x8192_S8256x8x32x32 : S8256x8192.ShapeCasts S8256x8x32x32
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S64x8192.size a
  hwx0_0 : ∀ i : grid0.Coords, EltTy.bits .f32 = 32 ∨ (Rect.block (s := S64x8192) S64x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S64x8192.size a
  hwx0_1 : ∀ i : grid0.Coords, EltTy.bits .f32 = 32 ∨ (Rect.block (s := S64x8192) S64x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x8192.size a ≤ S64x8192.size a
  hwx1_0 : ∀ i : grid1.Coords, EltTy.bits .f32 = 32 ∨ (Rect.block (s := S64x8192) S64x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x8192.size a
  hwx1_1 : ∀ i : grid1.Coords, EltTy.bits .i32 = 32 ∨ (Rect.block (s := S1x8192) S1x8192.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8192.size a ≤ S1x8192.size a
  hwx1_2 : ∀ i : grid1.Coords, EltTy.bits .f32 = 32 ∨ (Rect.block (s := S1x8192) S1x8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S192x8192.size a ≤ S8256x8192.size a
  hwx1_3 : ∀ i : grid1.Coords, EltTy.bits .f32 = 32 ∨ (Rect.block (s := S8256x8192) S192x8192.size (cc1_transform_3 i) (hinb1_3 i)).WholeWords (EltTy.packing .f32)

variable [Facts₀]

abbrev win0_0 : Pipeline.Window sig grid0 :=
  Pipeline.Window.ofSpec (Memref.whole main_v0) S64x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S64x8192.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x8192.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_2) S1x8192.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1_0) S64x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S1x8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S192x8192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond1 i == 1#1) && !(k1_cond2 i == 1#1) | ⟨_ + 4, h⟩ => absurd h (Nat.not_lt.2 (Nat.le_add_left _ _))

class Facts : Prop extends Facts₀ where

variable [Facts]
-- ==== ReferenceIdeal.lean ====
abbrev S64x8x32x32 : Shape := ⟨4, ![64, 8, 32, 32]⟩
abbrev S63x8x32x32 : Shape := ⟨4, ![63, 8, 32, 32]⟩
abbrev S_ : Shape := ⟨0, ![]⟩
abbrev S8x32x32 : Shape := ⟨3, ![8, 32, 32]⟩
abbrev S1x8x32x32 : Shape := ⟨4, ![1, 8, 32, 32]⟩
abbrev S8192 : Shape := ⟨1, ![8192]⟩
abbrev S8192x8192 : Shape := ⟨2, ![8192, 8192]⟩
abbrev S8192x1 : Shape := ⟨2, ![8192, 1]⟩
abbrev S8192x2 : Shape := ⟨2, ![8192, 2]⟩
abbrev S8192x8x32x32 : Shape := ⟨4, ![8192, 8, 32, 32]⟩
abbrev S8256x8x32x32 : Shape := ⟨4, ![8256, 8, 32, 32]⟩

abbrev nBuf : Space → Nat
  | .hbm => 105
  | .vmem => 0
  | .smem => 0
  | _ => 0

abbrev bufTy : (tb : Table) → Fin (tcTables nBuf tb) → BufTy
  | .hbm, ⟨0, _⟩ => ⟨S64x8x32x32, .f32⟩
  | .hbm, ⟨1, _⟩ => ⟨S63x8x32x32, .f32⟩
  | .hbm, ⟨2, _⟩ => ⟨S63x8x32x32, .f32⟩
  | .hbm, ⟨3, _⟩ => ⟨S_, .f32⟩
  | .hbm, ⟨4, _⟩ => ⟨S8x32x32, .f32⟩
  | .hbm, ⟨5, _⟩ => ⟨S1x8x32x32, .f32⟩
  | .hbm, ⟨6, _⟩ => ⟨S8x32x32, .f32⟩
  | .hbm, ⟨7, _⟩ => ⟨S8x32x32, .f32⟩
  | .hbm, ⟨8, _⟩ => ⟨S1x8x32x32, .f32⟩
  | .hbm, ⟨9, _⟩ => ⟨S8x32x32, .f32⟩
  | .hbm, ⟨10, _⟩ => ⟨S8x32x32, .f32⟩
  | .hbm, ⟨11, _⟩ => ⟨S8x32x32, .f32⟩
  | .hbm, ⟨12, _⟩ => ⟨S_, .f32⟩
  | .hbm, ⟨13, _⟩ => ⟨S8x32x32, .f32⟩
  | .hbm, ⟨14, _⟩ => ⟨S8x32x32, .i1⟩
  | .hbm, ⟨15, _⟩ => ⟨S8x32x32, .f32⟩
  | .hbm, ⟨16, _⟩ => ⟨S_, .f32⟩
  | .hbm, ⟨17, _⟩ => ⟨S8x32x32, .f32⟩
  | .hbm, ⟨18, _⟩ => ⟨S8x32x32, .i1⟩
  | .hbm, ⟨19, _⟩ => ⟨S8x32x32, .f32⟩
  | .hbm, ⟨20, _⟩ => ⟨S8x32x32, .f32⟩
  | .hbm, ⟨21, _⟩ => ⟨S8x32x32, .f32⟩
  | .hbm, ⟨22, _⟩ => ⟨S8x32x32, .f32⟩
  | .hbm, ⟨23, _⟩ => ⟨S8x32x32, .f32⟩
  | .hbm, ⟨24, _⟩ => ⟨S8x32x32, .i1⟩
  | .hbm, ⟨25, _⟩ => ⟨S_, .f32⟩
  | .hbm, ⟨26, _⟩ => ⟨S_, .f32⟩
  | .hbm, ⟨27, _⟩ => ⟨S8x32x32, .f32⟩
  | .hbm, ⟨28, _⟩ => ⟨S8x32x32, .f32⟩
  | .hbm, ⟨29, _⟩ => ⟨S8x32x32, .f32⟩
  | .hbm, ⟨30, _⟩ => ⟨S8x32x32, .f32⟩
  | .hbm, ⟨31, _⟩ => ⟨S_, .f32⟩
  | .hbm, ⟨32, _⟩ => ⟨S8x32x32, .f32⟩
  | .hbm, ⟨33, _⟩ => ⟨S8x32x32, .f32⟩
  | .hbm, ⟨34, _⟩ => ⟨S8x32x32, .f32⟩
  | .hbm, ⟨35, _⟩ => ⟨S8x32x32, .f32⟩
  | .hbm, ⟨36, _⟩ => ⟨S_, .f32⟩
  | .hbm, ⟨37, _⟩ => ⟨S8x32x32, .f32⟩
  | .hbm, ⟨38, _⟩ => ⟨S8x32x32, .f32⟩
  | .hbm, ⟨39, _⟩ => ⟨S1x8x32x32, .f32⟩
  | .hbm, ⟨40, _⟩ => ⟨S8x32x32, .f32⟩
  | .hbm, ⟨41, _⟩ => ⟨S8x32x32, .f32⟩
  | .hbm, ⟨42, _⟩ => ⟨S8x32x32, .f32⟩
  | .hbm, ⟨43, _⟩ => ⟨S8x32x32, .f32⟩
  | .hbm, ⟨44, _⟩ => ⟨S1x8x32x32, .f32⟩
  | .hbm, ⟨45, _⟩ => ⟨S8x32x32, .f32⟩
  | .hbm, ⟨46, _⟩ => ⟨S8x32x32, .f32⟩
  | .hbm, ⟨47, _⟩ => ⟨S8x32x32, .f32⟩
  | .hbm, ⟨48, _⟩ => ⟨S63x8x32x32, .f32⟩
  | .hbm, ⟨49, _⟩ => ⟨S8x32x32, .f32⟩
  | .hbm, ⟨50, _⟩ => ⟨S8x32x32, .f32⟩
  | .hbm, ⟨51, _⟩ => ⟨S1x8x32x32, .f32⟩
  | .hbm, ⟨52, _⟩ => ⟨S63x8x32x32, .f32⟩
  | .hbm, ⟨53, _⟩ => ⟨S63x8x32x32, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .i1⟩
  | .hbm, ⟨58, _⟩ => ⟨S_, .f32⟩
  | .hbm, ⟨59, _⟩ => ⟨S8x32x32, .f32⟩
  | .hbm, ⟨60, _⟩ => ⟨S8x32x32, .f32⟩
  | .hbm, ⟨61, _⟩ => ⟨S8192, .f32⟩
  | .hbm, ⟨62, _⟩ => ⟨S8192, .i32⟩
  | .hbm, ⟨63, _⟩ => ⟨S_, .i32⟩
  | .hbm, ⟨64, _⟩ => ⟨S_, .i32⟩
  | .hbm, ⟨65, _⟩ => ⟨S8192, .i32⟩
  | .hbm, ⟨66, _⟩ => ⟨S_, .i32⟩
  | .hbm, ⟨67, _⟩ => ⟨S8192, .i32⟩
  | .hbm, ⟨68, _⟩ => ⟨S8192, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S8192, .i32⟩
  | .hbm, ⟨73, _⟩ => ⟨S8192, .i32⟩
  | .hbm, ⟨74, _⟩ => ⟨S_, .i32⟩
  | .hbm, ⟨75, _⟩ => ⟨S8192, .i32⟩
  | .hbm, ⟨76, _⟩ => ⟨S8192, .i32⟩
  | .hbm, ⟨77, _⟩ => ⟨S_, .f32⟩
  | .hbm, ⟨78, _⟩ => ⟨S8192x8192, .f32⟩
  | .hbm, ⟨79, _⟩ => ⟨S8192, .i32⟩
  | .hbm, ⟨80, _⟩ => ⟨S_, .f32⟩
  | .hbm, ⟨81, _⟩ => ⟨S_, .f32⟩
  | .hbm, ⟨82, _⟩ => ⟨S8192, .f32⟩
  | .hbm, ⟨83, _⟩ => ⟨S8192, .f32⟩
  | .hbm, ⟨84, _⟩ => ⟨S_, .i32⟩
  | .hbm, ⟨85, _⟩ => ⟨S8192, .i32⟩
  | .hbm, ⟨86, _⟩ => ⟨S8192, .i1⟩
  | .hbm, ⟨87, _⟩ => ⟨S_, .i32⟩
  | .hbm, ⟨88, _⟩ => ⟨S8192, .i32⟩
  | .hbm, ⟨89, _⟩ => ⟨S8192, .i32⟩
  | .hbm, ⟨90, _⟩ => ⟨S8192, .i32⟩
  | .hbm, ⟨91, _⟩ => ⟨S_, .i32⟩
  | .hbm, ⟨92, _⟩ => ⟨S8192, .i32⟩
  | .hbm, ⟨93, _⟩ => ⟨S8192, .i1⟩
  | .hbm, ⟨94, _⟩ => ⟨S_, .i32⟩
  | .hbm, ⟨95, _⟩ => ⟨S8192, .i32⟩
  | .hbm, ⟨96, _⟩ => ⟨S8192, .i32⟩
  | .hbm, ⟨97, _⟩ => ⟨S8192, .i32⟩
  | .hbm, ⟨98, _⟩ => ⟨S8192x1, .i32⟩
  | .hbm, ⟨99, _⟩ => ⟨S8192x1, .i32⟩
  | .hbm, ⟨100, _⟩ => ⟨S8192x2, .i32⟩
  | .hbm, ⟨101, _⟩ => ⟨S8192x8192, .f32⟩
  | .hbm, ⟨102, _⟩ => ⟨S1x8x32x32, .f32⟩
  | .hbm, ⟨103, _⟩ => ⟨S8192x8x32x32, .f32⟩
  | .hbm, ⟨104, _⟩ => ⟨S8256x8x32x32, .f32⟩
  | _, _ => ⟨S64x8x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_call1_call0_c : Ref sig .tc := ⟨.hbm, 63, rfl⟩
abbrev main_call1_call0_v0 : Ref sig .tc := ⟨.hbm, 64, rfl⟩
abbrev main_v52 : Ref sig .tc := ⟨.hbm, 65, rfl⟩
abbrev main_c : Ref sig .tc := ⟨.hbm, 66, rfl⟩
abbrev main_v53 : Ref sig .tc := ⟨.hbm, 67, rfl⟩
abbrev main_v54 : Ref sig .tc := ⟨.hbm, 68, rfl⟩
abbrev main_c_7 : Ref sig .tc := ⟨.hbm, 69, rfl⟩
abbrev main_c_8 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_call3_v0 : Ref sig .tc := ⟨.hbm, 81, rfl⟩
abbrev main_call3_v1 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]

class Facts₀ : Prop where
  slices_S64x8x32x32_S63x8x32x32_1_0_0_0 : S64x8x32x32.Slices ![1, 0, 0, 0] S63x8x32x32
  reducesTo_S63x8x32x32_S8x32x32_d0 : S63x8x32x32.ReducesTo [0] S8x32x32
  h_S_ : 0 < S_.numel
  slices_S64x8x32x32_S1x8x32x32_0_0_0_0 : S64x8x32x32.Slices ![0, 0, 0, 0] S1x8x32x32
  shapeCasts_S1x8x32x32_S8x32x32 : S1x8x32x32.ShapeCasts S8x32x32
  bcast_S_S8x32x32 : S_.BroadcastsInDim S8x32x32 (![] : Fin 0 → Fin S8x32x32.rank)
  bcast_S8x32x32_S1x8x32x32_1_2_3 : S8x32x32.BroadcastsInDim S1x8x32x32 (![1, 2, 3] : Fin 3 → Fin S1x8x32x32.rank)
  bcast_S1x8x32x32_S63x8x32x32_0_1_2_3 : S1x8x32x32.BroadcastsInDim S63x8x32x32 (![0, 1, 2, 3] : Fin 4 → Fin S63x8x32x32.rank)
  shapeCasts_S8x32x32_S8192 : S8x32x32.ShapeCasts S8192
  bcast_S_S8192 : S_.BroadcastsInDim S8192 (![] : Fin 0 → Fin S8192.rank)
  natLt_1_32 : 1 < 32
  bcast_S_S_ : S_.BroadcastsInDim S_ (![] : Fin 0 → Fin S_.rank)
  reduceWindows_S8192_S8192_w8192s1p8191_0 : S8192.ReduceWindows (![8192] : Fin 1 → Nat) ![1] ![8191] ![0] S8192
  bcast_S_S8192x8192 : S_.BroadcastsInDim S8192x8192 (![] : Fin 0 → Fin S8192x8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  shapeCasts_S8192x8192_S8192x8x32x32 : S8192x8192.ShapeCasts S8192x8x32x32
  concatenates_S1x8x32x32_S63x8x32x32_S8192x8x32x32_S8256x8x32x32_d0 : Shape.Concatenates [S1x8x32x32, S63x8x32x32, S8192x8x32x32] S8256x8x32x32 0
  scatter_S8192x8192_S8192x2_S8192_n_01_01_1_wf : ScatterDims.WF S8192x8192 S8192x2 S8192 [] [0, 1] [0, 1] 1

variable [Facts₀]

def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf

class Facts : Prop extends Facts₀ where

variable [Facts]
-- ==== Proof.KernelRun.lean ====
/-
  The kernel program's run with its result named, and what its second pipeline is entered with, at the ideal
  instance (floats are extended reals). The program reshapes its argument to 64 rows of 8192 lanes; a one-point
  pipeline leaves three arrays — the new head and body rows, the crossing mask as floats, half the new error
  magnitude —; the host turns the mask into a target row per lane (an inclusive prefix sum minus one, clipped to
  the row range); a second pipeline over 43 blocks of 192 rows writes the result array, which the last host
  operation reshapes. Stated here: the run, its result the reshape of the second pipeline's result array as its
  write-backs leave it, and the three arrays that pipeline reads as pure functions of the reshaped argument.
-/
import proofs.«118274_j26998164423204_2_alg».proof.Proof.Gen.KernelIdeal.Frame
import Idealize.ShloMosaic.PureOps.Ideal
import Idealize.ShloMosaic.Lib.Pipeline.Value
import Idealize.ShloMosaic.Lib.ValueIdx

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! # The kernel program's run with its result named, and what its second pipeline is entered with

The program reshapes its argument to 64 rows of 8192 lanes, runs a one-point pipeline that leaves three arrays (the
new head and body rows, the crossing mask, and half the new error magnitude), turns the mask on the host into a target
row per lane (an inclusive prefix sum minus one, clipped to the row range), and runs a second pipeline over 43 row
blocks whose result array, reshaped, is the program's result. Here: the run with that result array named, and the
three arrays the second pipeline reads as pure functions of the reshaped argument. -/

/-- The argument reshaped to 64 rows of 8192 lanes: what the first pipeline reads. -/
abbrev X (c : Dev nD) : FVec Ideal S64x8192 .f32 :=
  shapeCast S64x8192 (m ((c.tc : Thread nD τ).loc main_arg0)) shapeCasts_S64x8x32x32_S64x8192

/-- The inclusive prefix sum of 32-bit words over the 8192 lanes, as the program computes it: a windowed sum of width
    8192 over the array padded with 8191 zeros on the left. -/
def prefixSum (v : IVec S8192 32) : IVec S8192 32 :=
  Host.reduceWindow IntOp.addi ![8192] ![1] ![8191] ![0] v (broadcastInDim S_ ![] bcast_S_S_ (constantI S_ 32 0#32)) reduceWindows_S8192_S8192_w8192s1p8191_0 h_S_

/-- The clip of a word array to [0, 8191] (signed): the larger of 0 and the word, then the smaller of 8191 and that. -/
def clipRows (v : IVec S8192 32) : IVec S8192 32 :=
  minsi (broadcastInDim S8192 ![] bcast_S_S8192 (id (constantI S_ 32 8191#32)))
    (maxsi (broadcastInDim S8192 ![] bcast_S_S8192 (id (constantI S_ 32 0#32))) v)

/-- The target row of each lane from the crossing mask (a float 0 or 1 per lane): the mask as words, its inclusive
    prefix sum minus one, clipped to [0, 8191], as one row. -/
def rowsOf (cross : FVec Ideal S1x8192 .f32) : IVec S1x8192 32 :=
  shapeCast S1x8192
    (clipRows (subi (prefixSum (fptosi 32 (shapeCast S8192 cross shapeCasts_S1x8192_S8192)))
      (broadcastInDim S8192 ![] bcast_S_S8192 (constantI S_ 32 1#32))))
    shapeCasts_S8192_S1x8192

/-! ## The first pipeline: one point, every block its whole array -/

theorem hz : (![0, 0] : Fin 2 → Nat) = fun _ => 0 := funext fun a => by fin_cases a <;> rfl

/-- One store through the whole staging buffer leaves its payload, read off the whole input block. -/
theorem out0_1_eq (x : Vec Ideal S64x8192 .f32) : out0_1 (F := Ideal) x = k0_pay11 x := by
  unfold out0_1; rw [View.canon_unit_zero hz]; simp only [View.ld_unit_zero (S := S64x8192) hz]
theorem out0_2_eq (x : Vec Ideal S64x8192 .f32) : out0_2 (F := Ideal) x = k0_pay7 x := by
  unfold out0_2; rw [View.canon_unit_zero hz]; simp only [View.ld_unit_zero (S := S64x8192) hz]
theorem out0_3_eq (x : Vec Ideal S64x8192 .f32) : out0_3 (F := Ideal) x = k0_pay1 (k0_pay7 x) (k0_pay10 x) := by
  unfold out0_3; rw [View.canon_unit_zero hz]; simp only [View.ld_unit_zero (S := S64x8192) hz]

section Region0
variable (V : (c : Dev nD) → (b : Ref sig .tc) → Buf (Elt Ideal) ((c : Thread nD τ).loc b))

/-- The input window's block at the one point is its whole array: block (0, 0) of an array of the block's own shape. -/
theorem iblk0_whole (c : Dev nD) (t : Fin cfg0.N) : iblk0 V c 0 t = V c main_v0 := by
  unfold iblk0
  have hi : ∀ a, win0_0.index t a = 0 := fun a => by fin_cases a <;> rfl
  have hz' : (fun a => win0_0.index t a * main_v0.ty.shape.size a) = fun _ => 0 := funext fun a => by rw [hi a, Nat.zero_mul]
  exact Memref.read_access_unit_zero (Elt Ideal) main_v0 hz' (fun a => by rw [congrFun hz' a]; simp) (V c main_v0)

end Region0

section Region0Arrays
variable (V : (c : Dev nD) → (b : Ref sig .tc) → Buf (Elt Ideal) ((c : Thread nD τ).loc b))

/-- Every index of a 64 × 8192 array is in block (0, 0) of 64 × 8192. -/
theorem mem_blk0_1 (c : Dev nD) (i : ((cfg0.win 1).arr.view.loc (c.tc : Thread nD τ)).2.ty.Idx) :
    i ∈ ((cfg0.win 1).blk t0_0).view.set := by
  show i ∈ ((View.whole main_v1_0).slice (win0_1.rect t0_0)).set
  rw [View.set_slice_whole, Rect.mem_set_unit]
  intro a
  have h0 : (i 0 : Nat) < 64 := (i 0).isLt
  have h1 : (i 1 : Nat) < 8192 := (i 1).isLt
  match a with
  | ⟨0, _⟩ =>
    show win0_1.index t0_0 0 * win0_1.size 0 ≤ (i 0 : Nat) ∧ (i 0 : Nat) < win0_1.index t0_0 0 * win0_1.size 0 + win0_1.xsize (grid0.coords t0_0) 0
    rw [show win0_1.index t0_0 0 * win0_1.size 0 = 0 from by decide +kernel, show win0_1.xsize (grid0.coords t0_0) 0 = 64 from by decide +kernel]; omega
  | ⟨1, _⟩ =>
    show win0_1.index t0_0 1 * win0_1.size 1 ≤ (i 1 : Nat) ∧ (i 1 : Nat) < win0_1.index t0_0 1 * win0_1.size 1 + win0_1.xsize (grid0.coords t0_0) 1
    rw [show win0_1.index t0_0 1 * win0_1.size 1 = 0 from by decide +kernel, show win0_1.xsize (grid0.coords t0_0) 1 = 8192 from by decide +kernel]; omega

/-- Every index of a 1 × 8192 array is in block (0, 0) of 1 × 8192 (the second output window). -/
theorem mem_blk0_2 (c : Dev nD) (i : ((cfg0.win 2).arr.view.loc (c.tc : Thread nD τ)).2.ty.Idx) :
    i ∈ ((cfg0.win 2).blk t0_0).view.set := by
  show i ∈ ((View.whole main_v1_1).slice (win0_2.rect t0_0)).set
  rw [View.set_slice_whole, Rect.mem_set_unit]
  intro a
  have h0 : (i 0 : Nat) < 1 := (i 0).isLt
  have h1 : (i 1 : Nat) < 8192 := (i 1).isLt
  match a with
  | ⟨0, _⟩ =>
    show win0_2.index t0_0 0 * win0_2.size 0 ≤ (i 0 : Nat) ∧ (i 0 : Nat) < win0_2.index t0_0 0 * win0_2.size 0 + win0_2.xsize (grid0.coords t0_0) 0
    rw [show win0_2.index t0_0 0 * win0_2.size 0 = 0 from by decide +kernel, show win0_2.xsize (grid0.coords t0_0) 0 = 1 from by decide +kernel]; omega
  | ⟨1, _⟩ =>
    show win0_2.index t0_0 1 * win0_2.size 1 ≤ (i 1 : Nat) ∧ (i 1 : Nat) < win0_2.index t0_0 1 * win0_2.size 1 + win0_2.xsize (grid0.coords t0_0) 1
    rw [show win0_2.index t0_0 1 * win0_2.size 1 = 0 from by decide +kernel, show win0_2.xsize (grid0.coords t0_0) 1 = 8192 from by decide +kernel]; omega

/-- Every index of a 1 × 8192 array is in block (0, 0) of 1 × 8192 (the third output window). -/
theorem mem_blk0_3 (c : Dev nD) (i : ((cfg0.win 3).arr.view.loc (c.tc : Thread nD τ)).2.ty.Idx) :
    i ∈ ((cfg0.win 3).blk t0_0).view.set := by
  show i ∈ ((View.whole main_v1_2).slice (win0_3.rect t0_0)).set
  rw [View.set_slice_whole, Rect.mem_set_unit]
  intro a
  have h0 : (i 0 : Nat) < 1 := (i 0).isLt
  have h1 : (i 1 : Nat) < 8192 := (i 1).isLt
  match a with
  | ⟨0, _⟩ =>
    show win0_3.index t0_0 0 * win0_3.size 0 ≤ (i 0 : Nat) ∧ (i 0 : Nat) < win0_3.index t0_0 0 * win0_3.size 0 + win0_3.xsize (grid0.coords t0_0) 0
    rw [show win0_3.index t0_0 0 * win0_3.size 0 = 0 from by decide +kernel, show win0_3.xsize (grid0.coords t0_0) 0 = 1 from by decide +kernel]; omega
  | ⟨1, _⟩ =>
    show win0_3.index t0_0 1 * win0_3.size 1 ≤ (i 1 : Nat) ∧ (i 1 : Nat) < win0_3.index t0_0 1 * win0_3.size 1 + win0_3.xsize (grid0.coords t0_0) 1
    rw [show win0_3.index t0_0 1 * win0_3.size 1 = 0 from by decide +kernel, show win0_3.xsize (grid0.coords t0_0) 1 = 8192 from by decide +kernel]; omega

/-- The first output array after the one point's write-back: the head-and-body payload of the input array. What
    the point writes back is the whole staging buffer, and its block is the whole array. -/
theorem arr0_1 (c : Dev nD) : (dat0 V c).arrAt 1 cfg0.N = k0_pay11 (V c main_v0) := by
  refine (dat0 V c).arrAt_eq_of_cover 1 (k0_pay11 (V c main_v0)) (fun t _ => ?_) (fun i => ⟨t0_0, flush0_1 t0_0, mem_blk0_1 c i⟩)
  show (cfg0.win 1).cut (grid0.coords t) ((dat0 V c).after 1 t) = _
  rw [after0_1, iblk0_whole, out0_1_eq]
  have hi : ∀ a, win0_1.index t a = 0 := fun a => by fin_cases a <;> rfl
  have hz' : (fun a => win0_1.index t a * main_v1_0.ty.shape.size a) = fun _ => 0 := funext fun a => by rw [hi a, Nat.zero_mul]
  exact (Memref.read_access_unit_zero (Elt Ideal) main_v1_0 hz' (fun a => by rw [congrFun hz' a]; simp) (k0_pay11 (V c main_v0))).symm

/-- The second output array: the crossing mask of the input array. -/
theorem arr0_2 (c : Dev nD) : (dat0 V c).arrAt 2 cfg0.N = k0_pay7 (V c main_v0) := by
  refine (dat0 V c).arrAt_eq_of_cover 2 (k0_pay7 (V c main_v0)) (fun t _ => ?_) (fun i => ⟨t0_0, flush0_2 t0_0, mem_blk0_2 c i⟩)
  show (cfg0.win 2).cut (grid0.coords t) ((dat0 V c).after 2 t) = _
  rw [after0_2, iblk0_whole, out0_2_eq]
  have hi : ∀ a, win0_2.index t a = 0 := fun a => by fin_cases a <;> rfl
  have hz' : (fun a => win0_2.index t a * main_v1_1.ty.shape.size a) = fun _ => 0 := funext fun a => by rw [hi a, Nat.zero_mul]
  exact (Memref.read_access_unit_zero (Elt Ideal) main_v1_1 hz' (fun a => by rw [congrFun hz' a]; simp) (k0_pay7 (V c main_v0))).symm

/-- The third output array: half the new error magnitude where the lane crosses, of the input array. -/
theorem arr0_3 (c : Dev nD) : (dat0 V c).arrAt 3 cfg0.N = k0_pay1 (k0_pay7 (V c main_v0)) (k0_pay10 (V c main_v0)) := by
  refine (dat0 V c).arrAt_eq_of_cover 3 (k0_pay1 (k0_pay7 (V c main_v0)) (k0_pay10 (V c main_v0))) (fun t _ => ?_) (fun i => ⟨t0_0, flush0_3 t0_0, mem_blk0_3 c i⟩)
  show (cfg0.win 3).cut (grid0.coords t) ((dat0 V c).after 3 t) = _
  rw [after0_3, iblk0_whole, out0_3_eq]
  have hi : ∀ a, win0_3.index t a = 0 := fun a => by fin_cases a <;> rfl
  have hz' : (fun a => win0_3.index t a * main_v1_2.ty.shape.size a) = fun _ => 0 := funext fun a => by rw [hi a, Nat.zero_mul]
  exact (Memref.read_access_unit_zero (Elt Ideal) main_v1_2 hz' (fun a => by rw [congrFun hz' a]; simp) (k0_pay1 (k0_pay7 (V c main_v0)) (k0_pay10 (V c main_v0)))).symm

end Region0Arrays

/-! ## The host stretches between the pipelines, one by one, from any contents -/

section Stretches
variable (Wv : Valuation τ sig (Elt Ideal))

/-- The mask as one row of 8192 lanes, then as words. -/
theorem stretch1_v3 : StableHlo.after (hostOps1 (F := Ideal)) Wv (Proc.devRef .tc main_v3)
    = fptosi (F := Ideal) (φ := .f32) 32 (shapeCast (s := S1x8192) (α := Ideal .f32) S8192 (Wv (Proc.devRef .tc main_v1_1)) shapeCasts_S1x8192_S8192) := by
  after_results
  rfl

/-- The outlined prefix sum's three operations with its windowed reduction any function `g` of the operand and the
    initial value: the result is `g` of them. Nothing about the reduction is used. -/
theorem stretch1_1_gen (g : IVec S8192 32 → IVec S_ 32 → IVec S8192 32) :
    StableHlo.after ([ StableHlo.TRef.nullary (.of main_call0_call0_c : StableHlo.TRef sig ⟨S_, .i32⟩) (constantI S_ 32 0#32),
      StableHlo.TRef.unary (.of main_call0_call0_c : StableHlo.TRef sig ⟨S_, .i32⟩) (.of main_call0_call0_v0 : StableHlo.TRef sig ⟨S_, .i32⟩) (broadcastInDim S_ ![] bcast_S_S_),
      StableHlo.TRef.binary (.of main_v3 : StableHlo.TRef sig ⟨S8192, .i32⟩) (.of main_call0_call0_v0 : StableHlo.TRef sig ⟨S_, .i32⟩) (.of main_v4 : StableHlo.TRef sig ⟨S8192, .i32⟩) g ]
        : List (HloOp τ sig (Elt Ideal))) Wv (Proc.devRef .tc main_v4)
      = g (Wv (Proc.devRef .tc main_v3) : IVec S8192 32) (broadcastInDim S_ ![] bcast_S_S_ (constantI S_ 32 0#32)) := by
  after_results
  rfl

/-- The inclusive prefix sum. -/
theorem stretch1_1_v4 : StableHlo.after (hostOps1_1 (F := Ideal)) Wv (Proc.devRef .tc main_v4)
    = prefixSum (Wv (Proc.devRef .tc main_v3) : IVec S8192 32) := by
  have h := stretch1_1_gen Wv (fun x v => Host.reduceWindow IntOp.addi ![8192] ![1] ![8191] ![0] x v reduceWindows_S8192_S8192_w8192s1p8191_0 h_S_)
  unfold prefixSum
  exact h

/-- Minus one, and the two clip bounds. -/
theorem stretch1_2_v6 : StableHlo.after (hostOps1_2 (F := Ideal)) Wv (Proc.devRef .tc main_v6)
    = subi (Wv (Proc.devRef .tc main_v4) : IVec S8192 32) (broadcastInDim S8192 ![] bcast_S_S8192 (constantI S_ 32 1#32)) := by
  after_results
theorem stretch1_2_c0 : StableHlo.after (hostOps1_2 (F := Ideal)) Wv (Proc.devRef .tc main_c_0) = constantI S_ 32 0#32 := by
  after_results
theorem stretch1_2_c1 : StableHlo.after (hostOps1_2 (F := Ideal)) Wv (Proc.devRef .tc main_c_1) = constantI S_ 32 8191#32 := by
  after_results

/-- The clip: the larger of the lower bound and the word, then the smaller of the upper bound and that. -/
theorem stretch1_3_v7 : StableHlo.after (hostOps1_3 (F := Ideal)) Wv (Proc.devRef .tc main_v7)
    = minsi (broadcastInDim S8192 ![] bcast_S_S8192 (id (Wv (Proc.devRef .tc main_c_1) : IVec S_ 32)))
        (maxsi (broadcastInDim S8192 ![] bcast_S_S8192 (id (Wv (Proc.devRef .tc main_c_0) : IVec S_ 32))) (Wv (Proc.devRef .tc main_v6) : IVec S8192 32)) := by
  after_results
  rfl

/-- As one row again. -/
theorem stretch1_4_v8 : StableHlo.after (hostOps1_4 (F := Ideal)) Wv (Proc.devRef .tc main_v8)
    = shapeCast S1x8192 (Wv (Proc.devRef .tc main_v7) : IVec S8192 32) shapeCasts_S8192_S1x8192 := by
  after_results
  rfl

/-- The five stretches in order: the target rows from the mask, whatever else the buffers held. -/
theorem stretches_v8 :
    StableHlo.after (hostOps1_4 (F := Ideal)) (StableHlo.after hostOps1_3 (StableHlo.after hostOps1_2 (StableHlo.after hostOps1_1 (StableHlo.after hostOps1 Wv))))
        (Proc.devRef .tc main_v8)
      = rowsOf (Wv (Proc.devRef .tc main_v1_1)) := by
  rw [stretch1_4_v8, stretch1_3_v7, stretch1_2_c1, stretch1_2_c0, stretch1_2_v6, stretch1_1_v4, stretch1_v3]
  unfold rowsOf clipRows
  rfl

end Stretches

/-! ## What the second pipeline is entered with -/

/-- The first pipeline is entered with its input array at the reshaped argument (the one host operation before it). -/
theorem V1_main_v0 (c : Dev nD) : V1 (F := Ideal) m ρ c main_v0 = X m c := by
  show StableHlo.after hostOps0 (W0 m ρ c) (Proc.devRef .tc main_v0) = _
  after_results
  rfl

/-- The first pipeline's three result arrays at its exit, as functions of the reshaped argument. -/
theorem W2_main_v1_0 (c : Dev nD) : W2 (F := Ideal) m ρ c (Proc.devRef .tc main_v1_0) = k0_pay11 (F := Ideal) (X m c) :=
  (W2_arr m ρ c 1).trans ((arr0_1 (V1 m ρ) c).trans (congrArg k0_pay11 (V1_main_v0 m ρ c)))
theorem W2_main_v1_1 (c : Dev nD) : W2 (F := Ideal) m ρ c (Proc.devRef .tc main_v1_1) = k0_pay7 (F := Ideal) (X m c) :=
  (W2_arr m ρ c 2).trans ((arr0_2 (V1 m ρ) c).trans (congrArg k0_pay7 (V1_main_v0 m ρ c)))
theorem W2_main_v1_2 (c : Dev nD) : W2 (F := Ideal) m ρ c (Proc.devRef .tc main_v1_2) = k0_pay1 (F := Ideal) (k0_pay7 (X m c)) (k0_pay10 (X m c)) :=
  (W2_arr m ρ c 3).trans ((arr0_3 (V1 m ρ) c).trans (congrArg (fun x => k0_pay1 (k0_pay7 x) (k0_pay10 x)) (V1_main_v0 m ρ c)))

/-- The head and body rows the second pipeline reads: no host operation between the pipelines writes that array. -/
theorem entry_headbody (c : Dev nD) : V7 (F := Ideal) m ρ c main_v1_0 = k0_pay11 (F := Ideal) (X m c) := by
  show StableHlo.after hostOps1_4 (W6 m ρ c) (Proc.devRef .tc main_v1_0) = _
  after_results
  exact W2_main_v1_0 m ρ c

/-- The values the second pipeline scatters: likewise untouched between the pipelines. -/
theorem entry_vals (c : Dev nD) : V7 (F := Ideal) m ρ c main_v1_2 = k0_pay1 (F := Ideal) (k0_pay7 (X m c)) (k0_pay10 (X m c)) := by
  show StableHlo.after hostOps1_4 (W6 m ρ c) (Proc.devRef .tc main_v1_2) = _
  after_results
  exact W2_main_v1_2 m ρ c

/-- The target rows the second pipeline reads: the host operations between the pipelines applied, in program order,
    to the crossing mask the first pipeline left. -/
theorem entry_rows (c : Dev nD) : V7 (F := Ideal) m ρ c main_v8 = rowsOf (k0_pay7 (F := Ideal) (X m c)) := by
  show StableHlo.after hostOps1_4 (StableHlo.after hostOps1_3 (StableHlo.after hostOps1_2 (StableHlo.after hostOps1_1
    (StableHlo.after hostOps1 (W2 m ρ c))))) (Proc.devRef .tc main_v8) = _
  rw [stretches_v8, W2_main_v1_1]

/-! ## The run -/

/-- The result buffer after the last host stretch: the reshape of the second pipeline's result array as its
    write-backs leave it. -/
theorem W9_main_v10 (c : Dev nD) :
    W9 (F := Ideal) m ρ c (Proc.devRef .tc main_v10)
      = shapeCast S8256x8x32x32 ((dat1 (F := Ideal) (V7 m ρ) c).arrAt 3 cfg1.N) shapeCasts_S8256x8192_S8256x8x32x32 := by
  show StableHlo.after hostOps2 (W8 m ρ c) (Proc.devRef .tc main_v10) = _
  after_results
  have e : W8 m ρ c (Proc.devRef .tc main_v9) = (dat1 (F := Ideal) (V7 m ρ) c).arrAt 3 cfg1.N := W8_arr m ρ c 3
  rw [e]
  rfl

-- the launch theorem's implicit arguments are found by unifying its conclusion with this one, which takes unfolding
-- plain definitions in a metavariable's type
set_option backward.isDefEq.respectTransparency.types false in
/-- THE RUN: from any memory with zero counters every weakly fair execution of the program terminates, nothing
    faulting, and every final state has the result buffer at the reshape of the second pipeline's result array and the
    argument as launched. The launch over the program's segments as the generated frame runs it, the last thread state
    read at the result buffer as well as at the argument. -/
theorem run : θ_run (defs (F := Ideal)) (onTc (τ := τ) (main (F := Ideal))) ⟨m, fun _ => 0, ρ⟩ (fun r => ∀ c : Dev nD,
      r.2.mem ((c.tc : Thread nD τ).loc main_v10) = shapeCast S8256x8x32x32 ((dat1 (F := Ideal) (V7 m ρ) c).arrAt 3 cfg1.N) shapeCasts_S8256x8192_S8256x8x32x32
      ∧ r.2.mem ((c.tc : Thread nD τ).loc main_arg0) = m ((c.tc : Thread nD τ).loc main_arg0)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨(h c _ (mem_uc main_v10 (by decide))).trans (W9_main_v10 m ρ c),
        (h c _ (mem_uc main_arg0 (by decide))).trans (W9_main_arg0 m ρ c)⟩)

end Cert.KernelIdeal.KRun
end
-- ==== Proof.RefTerm.lean ====
/-
  The reference program's result as ONE pure term of its argument array: the host operations of its
  @main composed in program order (the outlined helpers — the two selects, the prefix sum, the clip —
  written at their call sites), each intermediate named after the tensor value it is.
  In words, per content position k = (c, h, w): err = Σ_{i≥1} |x i k|, upper = x 0 k + err, lower = x 0 k − err,
  cross = [lower·upper < 0], nonneg = [lower ≥ 0], lam = nonneg + (cross·upper)/(upper − lower) (replaced by 1/2 where
  it is unordered with itself), delta = max(−lam·lower, (1 − lam)·upper); row 0 is the new centre
  (delta/2 + lam·x 0)·cross + x 0·nonneg, rows 1…63 the old error terms scaled by lam·cross + nonneg, and rows
  64… hold delta/2 of each crossing position k at tail row (number of crossings among positions ≤ k) − 1, zero elsewhere.
-/
import proofs.«118274_j26998164423204_2_alg».proof.ReferenceIdeal
import proofs.«118274_j26998164423204_2_alg».proof.Proof.Gen.ReferenceIdeal

noncomputable section

namespace Cert.ReferenceIdeal.RefTerm

open Idealize.ShloMosaic Cert.ReferenceIdeal
open Cert.ReferenceIdeal.Facts₀

variable {F : FTy → Type} [FloatOps F]

attribute [local instance] Cert.ReferenceIdeal.Gen.facts

/-- A scalar float constant spread over the content shape. -/
abbrev splat3 (b : BitVec 32) : FVec F S8x32x32 .f32 :=
  broadcastInDim S8x32x32 ![] bcast_S_S8x32x32 (constant S_ .f32 b)

/-- Row 0 of the argument, over the content shape (the centre). -/
def centre (x : FVec F S64x8x32x32 .f32) : FVec F S8x32x32 .f32 :=
  shapeCast S8x32x32 (extractStridedSlice S1x8x32x32 ![0, 0, 0, 0] x slices_S64x8x32x32_S1x8x32x32_0_0_0_0) shapeCasts_S1x8x32x32_S8x32x32

/-- Rows 1…63 of the argument (the error terms). -/
def terms (x : FVec F S64x8x32x32 .f32) : FVec F S63x8x32x32 .f32 :=
  extractStridedSlice S63x8x32x32 ![1, 0, 0, 0] x slices_S64x8x32x32_S63x8x32x32_1_0_0_0

/-- The radius: the sum over the error terms of their absolute values (%2). -/
def radius (x : FVec F S64x8x32x32 .f32) : FVec F S8x32x32 .f32 :=
  Host.reduceAdd (Host.absf (terms x)) (constant S_ .f32 0x00000000#32) reducesTo_S63x8x32x32_S8x32x32_d0 h_S_

/-- The upper bound (%5). -/
def upper (x : FVec F S64x8x32x32 .f32) : FVec F S8x32x32 .f32 := addf (centre x) (radius x)
/-- The lower bound (%8). -/
def lower (x : FVec F S64x8x32x32 .f32) : FVec F S8x32x32 .f32 := subf (centre x) (radius x)

/-- The crossing mask as bits (%11) and as floats (%12). -/
def crossBit (x : FVec F S64x8x32x32 .f32) : IVec S8x32x32 1 := cmpf .olt (mulf (lower x) (upper x)) (splat3 0x00000000#32)
def cross (x : FVec F S64x8x32x32 .f32) : FVec F S8x32x32 .f32 := uitofp .f32 (crossBit x)
/-- The nonnegative mask as floats (%15). -/
def nonneg (x : FVec F S64x8x32x32 .f32) : FVec F S8x32x32 .f32 := uitofp .f32 (cmpf .oge (lower x) (splat3 0x00000000#32))

/-- The slope before the repair (%19) and after it (%21). -/
def slope0 (x : FVec F S64x8x32x32 .f32) : FVec F S8x32x32 .f32 :=
  addf (nonneg x) (Host.divf (mulf (cross x) (upper x)) (subf (upper x) (lower x)))
def slope (x : FVec F S64x8x32x32 .f32) : FVec F S8x32x32 .f32 :=
  select (cmpf .une (slope0 x) (slope0 x)) (broadcastInDim S8x32x32 ![] bcast_S_S8x32x32 (id (constant S_ .f32 0x3F000000#32))) (slope0 x)

/-- The new error magnitude (%27). -/
def delta (x : FVec F S64x8x32x32 .f32) : FVec F S8x32x32 .f32 :=
  maximumf (mulf (Host.negf (slope x)) (lower x)) (mulf (subf (splat3 0x3F800000#32) (slope x)) (upper x))

/-- The new centre (%38). -/
def head (x : FVec F S64x8x32x32 .f32) : FVec F S8x32x32 .f32 :=
  addf (mulf (addf (Host.divf (delta x) (splat3 0x40000000#32)) (mulf (slope x) (centre x))) (cross x)) (mulf (centre x) (nonneg x))

/-- The scaled old error terms (%44). -/
def body (x : FVec F S64x8x32x32 .f32) : FVec F S63x8x32x32 .f32 :=
  mulf (terms x) (broadcastInDim S63x8x32x32 ![0, 1, 2, 3] bcast_S1x8x32x32_S63x8x32x32_0_1_2_3
    (broadcastInDim S1x8x32x32 ![1, 2, 3] bcast_S8x32x32_S1x8x32x32_1_2_3 (addf (mulf (slope x) (cross x)) (nonneg x))))

/-- The crossing condition over flat positions (%47). -/
def flatCond (x : FVec F S64x8x32x32 .f32) : IVec S8192 1 :=
  cmpf .ogt (shapeCast S8192 (cross x) shapeCasts_S8x32x32_S8192) (broadcastInDim S8192 ![] bcast_S_S8192 (constant S_ .f32 0x00000000#32))

/-- The inclusive prefix sum of 32-bit words over flat positions, as the program computes it: a windowed sum of
    width 8192 over the array padded with 8191 zeros on the left. -/
def prefixSum (v : IVec S8192 32) : IVec S8192 32 :=
  Host.reduceWindow IntOp.addi ![8192] ![1] ![8191] ![0] v (broadcastInDim S_ ![] bcast_S_S_ (constantI S_ 32 0#32)) reduceWindows_S8192_S8192_w8192s1p8191_0 h_S_

/-- The clip of a word array to [0, 8191] (signed), as the outlined helper computes it. -/
def clipRows (v : IVec S8192 32) : IVec S8192 32 :=
  minsi (broadcastInDim S8192 ![] bcast_S_S8192 (id (constantI S_ 32 8191#32)))
    (maxsi (broadcastInDim S8192 ![] bcast_S_S8192 (id (constantI S_ 32 0#32))) v)

/-- The target tail row of each flat position (%55). -/
def rows (x : FVec F S64x8x32x32 .f32) : IVec S8192 32 :=
  clipRows (subi (prefixSum (extui 32 (flatCond x) natLt_1_32)) (broadcastInDim S8192 ![] bcast_S_S8192 (constantI S_ 32 1#32)))

/-- The value scattered from each flat position (%58): half the new error magnitude where it crosses, zero elsewhere. -/
def updates (x : FVec F S64x8x32x32 .f32) : FVec F S8192 .f32 :=
  select (flatCond x) (shapeCast S8192 (Host.divf (delta x) (splat3 0x40000000#32)) shapeCasts_S8x32x32_S8192)
    (broadcastInDim S8192 ![] bcast_S_S8192 (id (constant S_ .f32 0x00000000#32)))

/-- A word array with 8192 added where it is negative (the wrap of a negative index). -/
def wrapNeg (v : IVec S8192 32) : IVec S8192 32 :=
  select (cmpi .slt v (broadcastInDim S8192 ![] bcast_S_S8192 (constantI S_ 32 0#32)))
    (addi v (broadcastInDim S8192 ![] bcast_S_S8192 (constantI S_ 32 8192#32))) v

/-- The scatter indices (%71): per flat position the pair (target row, position). -/
def scatterIdx (x : FVec F S64x8x32x32 .f32) : IVec S8192x2 32 :=
  concatenate S8192x2 1 [⟨S8192x1, broadcastInDim S8192x1 ![0] bcast_S8192_S8192x1_0 (wrapNeg (rows x))⟩,
    ⟨S8192x1, broadcastInDim S8192x1 ![0] bcast_S8192_S8192x1_0 (wrapNeg (iotaInDim S8192 32 0))⟩] concatenates_S8192x1_S8192x1_S8192x2_d1

/-- The tail (%72): zeros with each flat position's value written at (its target row, itself). -/
def tail (x : FVec F S64x8x32x32 .f32) : FVec F S8192x8192 .f32 :=
  Host.scatter scatter_S8192x8192_S8192x2_S8192_n_01_01_1 (fun _ b => b)
    (broadcastInDim S8192x8192 ![] bcast_S_S8192x8192 (constant S_ .f32 0x00000000#32)) (scatterIdx x) (updates x)

/-- The result (%75): the new centre, the scaled error terms, the tail, stacked along axis 0. -/
def result (x : FVec F S64x8x32x32 .f32) : FVec F S8256x8x32x32 .f32 :=
  concatenate S8256x8x32x32 0 [⟨S1x8x32x32, broadcastInDim S1x8x32x32 ![1, 2, 3] bcast_S8x32x32_S1x8x32x32_1_2_3 (head x)⟩,
    ⟨S63x8x32x32, body x⟩, ⟨S8192x8x32x32, shapeCast S8192x8x32x32 (tail x) shapeCasts_S8192x8192_S8192x8x32x32⟩]
    concatenates_S1x8x32x32_S63x8x32x32_S8192x8x32x32_S8256x8x32x32_d0

end Cert.ReferenceIdeal.RefTerm

end
-- ==== Proof.RefOps.lean ====
/-
  The reference program's @main as the list of its host operations in program order — the outlined helpers (the two
  selects, the prefix sum, the clip) written at their call sites, each over the buffers its call names —, in two
  windows (the program's statements 1 … 60 and 61 … 94), and what the first window leaves in the buffers the second
  still reads: the named intermediate terms of RefTerm.lean (the new centre, the scaled error terms, the crossing
  condition over flat positions, half the new error magnitude, the condition as words), the argument unchanged.
-/
import proofs.«118274_j26998164423204_2_alg».proof.Proof.RefTerm
import Idealize.ShloMosaic.Lib.StableHlo.Run

set_option Elab.async false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

attribute [local instance] Cert.ReferenceIdeal.Gen.facts

/-- Two columns of words side by side: the pairs (row, position) the scatter reads. -/
def pairCols (a b : (⟨S8192x1, .i32⟩ : BufTy).Contents (Elt F)) : (⟨S8192x2, .i32⟩ : BufTy).Contents (Elt F) :=
  concatenate S8192x2 1 [⟨S8192x1, a⟩, ⟨S8192x1, b⟩] concatenates_S8192x1_S8192x1_S8192x2_d1

/-- The three blocks of the result stacked along axis 0: the new centre, the scaled error terms, the tail. -/
def stack3 (a : (⟨S1x8x32x32, .f32⟩ : BufTy).Contents (Elt F)) (b : (⟨S63x8x32x32, .f32⟩ : BufTy).Contents (Elt F))
    (c : (⟨S8192x8x32x32, .f32⟩ : BufTy).Contents (Elt F)) : (⟨S8256x8x32x32, .f32⟩ : BufTy).Contents (Elt F) :=
  concatenate S8256x8x32x32 0 [⟨S1x8x32x32, a⟩, ⟨S63x8x32x32, b⟩, ⟨S8192x8x32x32, c⟩]
    concatenates_S1x8x32x32_S63x8x32x32_S8192x8x32x32_S8256x8x32x32_d0

/-- The first window: statements 1 … 60, the repair select's three operations at its call (62 operations). -/
abbrev ops0 : List (HloOp τ sig (Elt F)) :=
  [ unary main_arg0 main_v0 ((extractStridedSlice S63x8x32x32 ![1, 0, 0, 0] · slices_S64x8x32x32_S63x8x32x32_1_0_0_0) : (⟨S64x8x32x32, .f32⟩ : BufTy).Contents (Elt F) → (⟨S63x8x32x32, .f32⟩ : BufTy).Contents (Elt F)),
    unary main_v0 main_v1 (Host.absf : (⟨S63x8x32x32, .f32⟩ : BufTy).Contents (Elt F) → (⟨S63x8x32x32, .f32⟩ : BufTy).Contents (Elt F)),
    nullary main_cst (constant S_ .f32 0x00000000#32),
    binary main_v1 main_cst main_v2 ((fun x v => Host.reduceAdd x v reducesTo_S63x8x32x32_S8x32x32_d0 h_S_) : (⟨S63x8x32x32, .f32⟩ : BufTy).Contents (Elt F) → (⟨S_, .f32⟩ : BufTy).Contents (Elt F) → (⟨S8x32x32, .f32⟩ : BufTy).Contents (Elt F)),
    unary main_arg0 main_v3 ((extractStridedSlice S1x8x32x32 ![0, 0, 0, 0] · slices_S64x8x32x32_S1x8x32x32_0_0_0_0) : (⟨S64x8x32x32, .f32⟩ : BufTy).Contents (Elt F) → (⟨S1x8x32x32, .f32⟩ : BufTy).Contents (Elt F)),
    reshape main_v3 main_v4 rfl shapeCasts_S1x8x32x32_S8x32x32,
    binary main_v4 main_v2 main_v5 (addf : (⟨S8x32x32, .f32⟩ : BufTy).Contents (Elt F) → (⟨S8x32x32, .f32⟩ : BufTy).Contents (Elt F) → (⟨S8x32x32, .f32⟩ : BufTy).Contents (Elt F)),
    unary main_arg0 main_v6 ((extractStridedSlice S1x8x32x32 ![0, 0, 0, 0] · slices_S64x8x32x32_S1x8x32x32_0_0_0_0) : (⟨S64x8x32x32, .f32⟩ : BufTy).Contents (Elt F) → (⟨S1x8x32x32, .f32⟩ : BufTy).Contents (Elt F)),
    reshape main_v6 main_v7 rfl shapeCasts_S1x8x32x32_S8x32x32,
    binary main_v7 main_v2 main_v8 (subf : (⟨S8x32x32, .f32⟩ : BufTy).Contents (Elt F) → (⟨S8x32x32, .f32⟩ : BufTy).Contents (Elt F) → (⟨S8x32x32, .f32⟩ : BufTy).Contents (Elt F)),
    binary main_v8 main_v5 main_v9 (mulf : (⟨S8x32x32, .f32⟩ : BufTy).Contents (Elt F) → (⟨S8x32x32, .f32⟩ : BufTy).Contents (Elt F) → (⟨S8x32x32, .f32⟩ : BufTy).Contents (Elt F)),
    nullary main_cst_0 (constant S_ .f32 0x00000000#32),
    unary main_cst_0 main_v10 (broadcastInDim S8x32x32 ![] bcast_S_S8x32x32 : (⟨S_, .f32⟩ : BufTy).Contents (Elt F) → (⟨S8x32x32, .f32⟩ : BufTy).Contents (Elt F)),
    binary main_v9 main_v10 main_v11 (cmpf .olt : (⟨S8x32x32, .f32⟩ : BufTy).Contents (Elt F) → (⟨S8x32x32, .f32⟩ : BufTy).Contents (Elt F) → (⟨S8x32x32, .i1⟩ : BufTy).Contents (Elt F)),
    unary main_v11 main_v12 (uitofp .f32 : (⟨S8x32x32, .i1⟩ : BufTy).Contents (Elt F) → (⟨S8x32x32, .f32⟩ : BufTy).Contents (Elt F)),
    nullary main_cst_1 (constant S_ .f32 0x00000000#32),
    unary main_cst_1 main_v13 (broadcastInDim S8x32x32 ![] bcast_S_S8x32x32 : (⟨S_, .f32⟩ : BufTy).Contents (Elt F) → (⟨S8x32x32, .f32⟩ : BufTy).Contents (Elt F)),
    binary main_v8 main_v13 main_v14 (cmpf .oge : (⟨S8x32x32, .f32⟩ : BufTy).Contents (Elt F) → (⟨S8x32x32, .f32⟩ : BufTy).Contents (Elt F) → (⟨S8x32x32, .i1⟩ : BufTy).Contents (Elt F)),
    unary main_v14 main_v15 (uitofp .f32 : (⟨S8x32x32, .i1⟩ : BufTy).Contents (Elt F) → (⟨S8x32x32, .f32⟩ : BufTy).Contents (Elt F)),
    binary main_v12 main_v5 main_v16 (mulf : (⟨S8x32x32, .f32⟩ : BufTy).Contents (Elt F) → (⟨S8x32x32, .f32⟩ : BufTy).Contents (Elt F) → (⟨S8x32x32, .f32⟩ : BufTy).Contents (Elt F)),
    binary main_v5 main_v8 main_v17 (subf : (⟨S8x32x32, .f32⟩ : BufTy).Contents (Elt F) → (⟨S8x32x32, .f32⟩ : BufTy).Contents (Elt F) → (⟨S8x32x32, .f32⟩ : BufTy).Contents (Elt F)),
    binary main_v16 main_v17 main_v18 (Host.divf : (⟨S8x32x32, .f32⟩ : BufTy).Contents (Elt F) → (⟨S8x32x32, .f32⟩ : BufTy).Contents (Elt F) → (⟨S8x32x32, .f32⟩ : BufTy).Contents (Elt F)),
    binary main_v15 main_v18 main_v19 (addf : (⟨S8x32x32, .f32⟩ : BufTy).Contents (Elt F) → (⟨S8x32x32, .f32⟩ : BufTy).Contents (Elt F) → (⟨S8x32x32, .f32⟩ : BufTy).Contents (Elt F)),
    binary main_v19 main_v19 main_v20 (cmpf .une : (⟨S8x32x32, .f32⟩ : BufTy).Contents (Elt F) → (⟨S8x32x32, .f32⟩ : BufTy).Contents (Elt F) → (⟨S8x32x32, .i1⟩ : BufTy).Contents (Elt F)),
    nullary main_cst_2 (constant S_ .f32 0x3F000000#32),
    TRef.unary (.of main_cst_2 : TRef sig ⟨S_, .f32⟩) main_call0.v0 id,
    TRef.unary main_call0.v0 main_call0.v1 (broadcastInDim S8x32x32 ![] bcast_S_S8x32x32),
    TRef.ternary (.of main_v20 : TRef sig ⟨S8x32x32, .i1⟩) main_call0.v1 (.of main_v19 : TRef sig ⟨S8x32x32, .f32⟩) main_call0.v2 select,
    unary main_v21 main_v22 (Host.negf : (⟨S8x32x32, .f32⟩ : BufTy).Contents (Elt F) → (⟨S8x32x32, .f32⟩ : BufTy).Contents (Elt F)),
    binary main_v22 main_v8 main_v23 (mulf : (⟨S8x32x32, .f32⟩ : BufTy).Contents (Elt F) → (⟨S8x32x32, .f32⟩ : BufTy).Contents (Elt F) → (⟨S8x32x32, .f32⟩ : BufTy).Contents (Elt F)),
    nullary main_cst_3 (constant S_ .f32 0x3F800000#32),
    unary main_cst_3 main_v24 (broadcastInDim S8x32x32 ![] bcast_S_S8x32x32 : (⟨S_, .f32⟩ : BufTy).Contents (Elt F) → (⟨S8x32x32, .f32⟩ : BufTy).Contents (Elt F)),
    binary main_v24 main_v21 main_v25 (subf : (⟨S8x32x32, .f32⟩ : BufTy).Contents (Elt F) → (⟨S8x32x32, .f32⟩ : BufTy).Contents (Elt F) → (⟨S8x32x32, .f32⟩ : BufTy).Contents (Elt F)),
    binary main_v25 main_v5 main_v26 (mulf : (⟨S8x32x32, .f32⟩ : BufTy).Contents (Elt F) → (⟨S8x32x32, .f32⟩ : BufTy).Contents (Elt F) → (⟨S8x32x32, .f32⟩ : BufTy).Contents (Elt F)),
    binary main_v23 main_v26 main_v27 (maximumf : (⟨S8x32x32, .f32⟩ : BufTy).Contents (Elt F) → (⟨S8x32x32, .f32⟩ : BufTy).Contents (Elt F) → (⟨S8x32x32, .f32⟩ : BufTy).Contents (Elt F)),
    nullary main_cst_4 (constant S_ .f32 0x40000000#32),
    unary main_cst_4 main_v28 (broadcastInDim S8x32x32 ![] bcast_S_S8x32x32 : (⟨S_, .f32⟩ : BufTy).Contents (Elt F) → (⟨S8x32x32, .f32⟩ : BufTy).Contents (Elt F)),
    binary main_v27 main_v28 main_v29 (Host.divf : (⟨S8x32x32, .f32⟩ : BufTy).Contents (Elt F) → (⟨S8x32x32, .f32⟩ : BufTy).Contents (Elt F) → (⟨S8x32x32, .f32⟩ : BufTy).Contents (Elt F)),
    unary main_arg0 main_v30 ((extractStridedSlice S1x8x32x32 ![0, 0, 0, 0] · slices_S64x8x32x32_S1x8x32x32_0_0_0_0) : (⟨S64x8x32x32, .f32⟩ : BufTy).Contents (Elt F) → (⟨S1x8x32x32, .f32⟩ : BufTy).Contents (Elt F)),
    reshape main_v30 main_v31 rfl shapeCasts_S1x8x32x32_S8x32x32,
    binary main_v21 main_v31 main_v32 (mulf : (⟨S8x32x32, .f32⟩ : BufTy).Contents (Elt F) → (⟨S8x32x32, .f32⟩ : BufTy).Contents (Elt F) → (⟨S8x32x32, .f32⟩ : BufTy).Contents (Elt F)),
    binary main_v29 main_v32 main_v33 (addf : (⟨S8x32x32, .f32⟩ : BufTy).Contents (Elt F) → (⟨S8x32x32, .f32⟩ : BufTy).Contents (Elt F) → (⟨S8x32x32, .f32⟩ : BufTy).Contents (Elt F)),
    binary main_v33 main_v12 main_v34 (mulf : (⟨S8x32x32, .f32⟩ : BufTy).Contents (Elt F) → (⟨S8x32x32, .f32⟩ : BufTy).Contents (Elt F) → (⟨S8x32x32, .f32⟩ : BufTy).Contents (Elt F)),
    unary main_arg0 main_v35 ((extractStridedSlice S1x8x32x32 ![0, 0, 0, 0] · slices_S64x8x32x32_S1x8x32x32_0_0_0_0) : (⟨S64x8x32x32, .f32⟩ : BufTy).Contents (Elt F) → (⟨S1x8x32x32, .f32⟩ : BufTy).Contents (Elt F)),
    reshape main_v35 main_v36 rfl shapeCasts_S1x8x32x32_S8x32x32,
    binary main_v36 main_v15 main_v37 (mulf : (⟨S8x32x32, .f32⟩ : BufTy).Contents (Elt F) → (⟨S8x32x32, .f32⟩ : BufTy).Contents (Elt F) → (⟨S8x32x32, .f32⟩ : BufTy).Contents (Elt F)),
    binary main_v34 main_v37 main_v38 (addf : (⟨S8x32x32, .f32⟩ : BufTy).Contents (Elt F) → (⟨S8x32x32, .f32⟩ : BufTy).Contents (Elt F) → (⟨S8x32x32, .f32⟩ : BufTy).Contents (Elt F)),
    unary main_arg0 main_v39 ((extractStridedSlice S63x8x32x32 ![1, 0, 0, 0] · slices_S64x8x32x32_S63x8x32x32_1_0_0_0) : (⟨S64x8x32x32, .f32⟩ : BufTy).Contents (Elt F) → (⟨S63x8x32x32, .f32⟩ : BufTy).Contents (Elt F)),
    binary main_v21 main_v12 main_v40 (mulf : (⟨S8x32x32, .f32⟩ : BufTy).Contents (Elt F) → (⟨S8x32x32, .f32⟩ : BufTy).Contents (Elt F) → (⟨S8x32x32, .f32⟩ : BufTy).Contents (Elt F)),
    binary main_v40 main_v15 main_v41 (addf : (⟨S8x32x32, .f32⟩ : BufTy).Contents (Elt F) → (⟨S8x32x32, .f32⟩ : BufTy).Contents (Elt F) → (⟨S8x32x32, .f32⟩ : BufTy).Contents (Elt F)),
    unary main_v41 main_v42 (broadcastInDim S1x8x32x32 ![1, 2, 3] bcast_S8x32x32_S1x8x32x32_1_2_3 : (⟨S8x32x32, .f32⟩ : BufTy).Contents (Elt F) → (⟨S1x8x32x32, .f32⟩ : BufTy).Contents (Elt F)),
    unary main_v42 main_v43 (broadcastInDim S63x8x32x32 ![0, 1, 2, 3] bcast_S1x8x32x32_S63x8x32x32_0_1_2_3 : (⟨S1x8x32x32, .f32⟩ : BufTy).Contents (Elt F) → (⟨S63x8x32x32, .f32⟩ : BufTy).Contents (Elt F)),
    binary main_v39 main_v43 main_v44 (mulf : (⟨S63x8x32x32, .f32⟩ : BufTy).Contents (Elt F) → (⟨S63x8x32x32, .f32⟩ : BufTy).Contents (Elt F) → (⟨S63x8x32x32, .f32⟩ : BufTy).Contents (Elt F)),
    reshape main_v12 main_v45 rfl shapeCasts_S8x32x32_S8192,
    nullary main_cst_5 (constant S_ .f32 0x00000000#32),
    unary main_cst_5 main_v46 (broadcastInDim S8192 ![] bcast_S_S8192 : (⟨S_, .f32⟩ : BufTy).Contents (Elt F) → (⟨S8192, .f32⟩ : BufTy).Contents (Elt F)),
    binary main_v45 main_v46 main_v47 (cmpf .ogt : (⟨S8192, .f32⟩ : BufTy).Contents (Elt F) → (⟨S8192, .f32⟩ : BufTy).Contents (Elt F) → (⟨S8192, .i1⟩ : BufTy).Contents (Elt F)),
    nullary main_cst_6 (constant S_ .f32 0x40000000#32),
    unary main_cst_6 main_v48 (broadcastInDim S8x32x32 ![] bcast_S_S8x32x32 : (⟨S_, .f32⟩ : BufTy).Contents (Elt F) → (⟨S8x32x32, .f32⟩ : BufTy).Contents (Elt F)),
    binary main_v27 main_v48 main_v49 (Host.divf : (⟨S8x32x32, .f32⟩ : BufTy).Contents (Elt F) → (⟨S8x32x32, .f32⟩ : BufTy).Contents (Elt F) → (⟨S8x32x32, .f32⟩ : BufTy).Contents (Elt F)),
    reshape main_v49 main_v50 rfl shapeCasts_S8x32x32_S8192,
    unary main_v47 main_v51 ((extui 32 · natLt_1_32) : (⟨S8192, .i1⟩ : BufTy).Contents (Elt F) → (⟨S8192, .i32⟩ : BufTy).Contents (Elt F)) ]

/-- The second window: statements 61 … 94, the prefix sum's three operations, the clip's six and the second
    select's three at their calls (42 operations). -/
abbrev ops1 : List (HloOp τ sig (Elt F)) :=
  [ nullary main_call1_call0_c (constantI S_ 32 0#32),
    unary main_call1_call0_c main_call1_call0_v0 (broadcastInDim S_ ![] bcast_S_S_ : (⟨S_, .i32⟩ : BufTy).Contents (Elt F) → (⟨S_, .i32⟩ : BufTy).Contents (Elt F)),
    binary main_v51 main_call1_call0_v0 main_v52 ((fun x v => Host.reduceWindow IntOp.addi ![8192] ![1] ![8191] ![0] x v reduceWindows_S8192_S8192_w8192s1p8191_0 h_S_) : (⟨S8192, .i32⟩ : BufTy).Contents (Elt F) → (⟨S_, .i32⟩ : BufTy).Contents (Elt F) → (⟨S8192, .i32⟩ : BufTy).Contents (Elt F)),
    nullary main_c (constantI S_ 32 1#32),
    unary main_c main_v53 (broadcastInDim S8192 ![] bcast_S_S8192 : (⟨S_, .i32⟩ : BufTy).Contents (Elt F) → (⟨S8192, .i32⟩ : BufTy).Contents (Elt F)),
    binary main_v52 main_v53 main_v54 (subi : (⟨S8192, .i32⟩ : BufTy).Contents (Elt F) → (⟨S8192, .i32⟩ : BufTy).Contents (Elt F) → (⟨S8192, .i32⟩ : BufTy).Contents (Elt F)),
    nullary main_c_7 (constantI S_ 32 0#32),
    nullary main_c_8 (constantI S_ 32 8191#32),
    unary main_c_7 main_call2_v0 (id : (⟨S_, .i32⟩ : BufTy).Contents (Elt F) → (⟨S_, .i32⟩ : BufTy).Contents (Elt F)),
    unary main_call2_v0 main_call2_v1 (broadcastInDim S8192 ![] bcast_S_S8192 : (⟨S_, .i32⟩ : BufTy).Contents (Elt F) → (⟨S8192, .i32⟩ : BufTy).Contents (Elt F)),
    binary main_call2_v1 main_v54 main_call2_v2 (maxsi : (⟨S8192, .i32⟩ : BufTy).Contents (Elt F) → (⟨S8192, .i32⟩ : BufTy).Contents (Elt F) → (⟨S8192, .i32⟩ : BufTy).Contents (Elt F)),
    unary main_c_8 main_call2_v3 (id : (⟨S_, .i32⟩ : BufTy).Contents (Elt F) → (⟨S_, .i32⟩ : BufTy).Contents (Elt F)),
    unary main_call2_v3 main_call2_v4 (broadcastInDim S8192 ![] bcast_S_S8192 : (⟨S_, .i32⟩ : BufTy).Contents (Elt F) → (⟨S8192, .i32⟩ : BufTy).Contents (Elt F)),
    binary main_call2_v4 main_call2_v2 main_v55 (minsi : (⟨S8192, .i32⟩ : BufTy).Contents (Elt F) → (⟨S8192, .i32⟩ : BufTy).Contents (Elt F) → (⟨S8192, .i32⟩ : BufTy).Contents (Elt F)),
    nullary main_cst_9 (constant S_ .f32 0x00000000#32),
    unary main_cst_9 main_v56 (broadcastInDim S8192x8192 ![] bcast_S_S8192x8192 : (⟨S_, .f32⟩ : BufTy).Contents (Elt F) → (⟨S8192x8192, .f32⟩ : BufTy).Contents (Elt F)),
    nullary main_v57 (iotaInDim S8192 32 0),
    nullary main_cst_10 (constant S_ .f32 0x00000000#32),
    unary main_cst_10 main_call3_v0 (id : (⟨S_, .f32⟩ : BufTy).Contents (Elt F) → (⟨S_, .f32⟩ : BufTy).Contents (Elt F)),
    unary main_call3_v0 main_call3_v1 (broadcastInDim S8192 ![] bcast_S_S8192 : (⟨S_, .f32⟩ : BufTy).Contents (Elt F) → (⟨S8192, .f32⟩ : BufTy).Contents (Elt F)),
    ternary main_v47 main_v50 main_call3_v1 main_v58 (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F)),
    nullary main_c_11 (constantI S_ 32 0#32),
    unary main_c_11 main_v59 (broadcastInDim S8192 ![] bcast_S_S8192 : (⟨S_, .i32⟩ : BufTy).Contents (Elt F) → (⟨S8192, .i32⟩ : BufTy).Contents (Elt F)),
    binary main_v55 main_v59 main_v60 (cmpi .slt : (⟨S8192, .i32⟩ : BufTy).Contents (Elt F) → (⟨S8192, .i32⟩ : BufTy).Contents (Elt F) → (⟨S8192, .i1⟩ : BufTy).Contents (Elt F)),
    nullary main_c_12 (constantI S_ 32 8192#32),
    unary main_c_12 main_v61 (broadcastInDim S8192 ![] bcast_S_S8192 : (⟨S_, .i32⟩ : BufTy).Contents (Elt F) → (⟨S8192, .i32⟩ : BufTy).Contents (Elt F)),
    binary main_v55 main_v61 main_v62 (addi : (⟨S8192, .i32⟩ : BufTy).Contents (Elt F) → (⟨S8192, .i32⟩ : BufTy).Contents (Elt F) → (⟨S8192, .i32⟩ : BufTy).Contents (Elt F)),
    ternary main_v60 main_v62 main_v55 main_v63 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_13 (constantI S_ 32 0#32),
    unary main_c_13 main_v64 (broadcastInDim S8192 ![] bcast_S_S8192 : (⟨S_, .i32⟩ : BufTy).Contents (Elt F) → (⟨S8192, .i32⟩ : BufTy).Contents (Elt F)),
    binary main_v57 main_v64 main_v65 (cmpi .slt : (⟨S8192, .i32⟩ : BufTy).Contents (Elt F) → (⟨S8192, .i32⟩ : BufTy).Contents (Elt F) → (⟨S8192, .i1⟩ : BufTy).Contents (Elt F)),
    nullary main_c_14 (constantI S_ 32 8192#32),
    unary main_c_14 main_v66 (broadcastInDim S8192 ![] bcast_S_S8192 : (⟨S_, .i32⟩ : BufTy).Contents (Elt F) → (⟨S8192, .i32⟩ : BufTy).Contents (Elt F)),
    binary main_v57 main_v66 main_v67 (addi : (⟨S8192, .i32⟩ : BufTy).Contents (Elt F) → (⟨S8192, .i32⟩ : BufTy).Contents (Elt F) → (⟨S8192, .i32⟩ : BufTy).Contents (Elt F)),
    ternary main_v65 main_v67 main_v57 main_v68 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v63 main_v69 (broadcastInDim S8192x1 ![0] bcast_S8192_S8192x1_0 : (⟨S8192, .i32⟩ : BufTy).Contents (Elt F) → (⟨S8192x1, .i32⟩ : BufTy).Contents (Elt F)),
    unary main_v68 main_v70 (broadcastInDim S8192x1 ![0] bcast_S8192_S8192x1_0 : (⟨S8192, .i32⟩ : BufTy).Contents (Elt F) → (⟨S8192x1, .i32⟩ : BufTy).Contents (Elt F)),
    binary main_v69 main_v70 main_v71 (pairCols (F := F)),
    ternary main_v56 main_v71 main_v58 main_v72 ((fun x i u => Host.scatter scatter_S8192x8192_S8192x2_S8192_n_01_01_1 (fun _ b => b) x i u) : (⟨S8192x8192, .f32⟩ : BufTy).Contents (Elt F) → (⟨S8192x2, .i32⟩ : BufTy).Contents (Elt F) → (⟨S8192, .f32⟩ : BufTy).Contents (Elt F) → (⟨S8192x8192, .f32⟩ : BufTy).Contents (Elt F)),
    unary main_v38 main_v73 (broadcastInDim S1x8x32x32 ![1, 2, 3] bcast_S8x32x32_S1x8x32x32_1_2_3 : (⟨S8x32x32, .f32⟩ : BufTy).Contents (Elt F) → (⟨S1x8x32x32, .f32⟩ : BufTy).Contents (Elt F)),
    reshape main_v72 main_v74 rfl shapeCasts_S8192x8192_S8192x8x32x32,
    nary ![main_v73, main_v44, main_v74] main_v75 (fun u => stack3 (F := F) (u 0) (u 1) (u 2)) ]

/-- @main's 104 operations, in order. -/
abbrev ops : List (HloOp τ sig (Elt F)) := ops0 ++ ops1

set_option maxRecDepth 8192 in
set_option maxHeartbeats 4000000 in
/-- The first window is that straight line: the select helper unfolded at its call, sequencing reassociated. -/
theorem part0_eq (c : Dev nD) : main_part0 (F := F) c = seq ops0 := by
  simp only [main_part0, fn_where.body, seq, bind_assoc, pure_bind]
  rfl

attribute [local irreducible] Host.reduceWindow Host.scatter in
set_option maxRecDepth 8192 in
set_option maxHeartbeats 4000000 in
/-- The second window likewise: the prefix sum (through its inner helper), the clip and the select unfolded; a helper's
    operation over its typed buffer references is the same operation over the buffers themselves. -/
theorem part1_eq (c : Dev nD) : main_part1 (F := F) c = seq ops1 := by
  simp only [main_part1, fn_cumsum.body, fn_cumsum_0.body, fn_clip.body, fn_where_1.body, seq, bind_assoc, pure_bind]
  rfl

set_option maxRecDepth 8192 in
/-- @main runs the two windows in order: the concatenated line. -/
theorem main_eq (c : Dev nD) : main (F := F) c = seq ops := by
  simp only [ops, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., unary_bufs_sub .., nullary_bufs_sub .., binary_bufs_sub .., unary_bufs_sub .., reshape_bufs_sub .., binary_bufs_sub .., unary_bufs_sub .., reshape_bufs_sub .., binary_bufs_sub .., binary_bufs_sub .., nullary_bufs_sub .., unary_bufs_sub .., binary_bufs_sub .., unary_bufs_sub .., nullary_bufs_sub .., unary_bufs_sub .., binary_bufs_sub .., unary_bufs_sub .., binary_bufs_sub .., binary_bufs_sub .., binary_bufs_sub .., binary_bufs_sub .., binary_bufs_sub .., nullary_bufs_sub .., unary_bufs_sub .., unary_bufs_sub .., ternary_bufs_sub .., unary_bufs_sub .., binary_bufs_sub .., nullary_bufs_sub .., unary_bufs_sub .., binary_bufs_sub .., binary_bufs_sub .., binary_bufs_sub .., nullary_bufs_sub .., unary_bufs_sub .., binary_bufs_sub .., unary_bufs_sub .., reshape_bufs_sub .., binary_bufs_sub .., binary_bufs_sub .., binary_bufs_sub .., unary_bufs_sub .., reshape_bufs_sub .., binary_bufs_sub .., binary_bufs_sub .., unary_bufs_sub .., binary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., reshape_bufs_sub .., unary_bufs_sub ..⟩
set_option maxRecDepth 8192 in
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., nullary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub .., reshape_bufs_sub .., nary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

/-! ## The run, window by window -/

/-- The fold over a concatenated line is the fold over its second part from the fold over its first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The buffers' contents after the first window. -/
def val1 (V0 : Valuation τ sig (Elt F)) : Valuation τ sig (Elt F) := after ops0 V0

set_option maxRecDepth 8192 in
set_option maxHeartbeats 4000000 in
/-- The first window writes no argument. -/
theorem val1_arg0 (V0 : Valuation τ sig (Elt F)) :
    val1 V0 (no_index (Proc.devRef .tc main_arg0)) = V0 (Proc.devRef .tc main_arg0) := by
  unfold val1
  simp only [ops0]
  after_results_simp

set_option maxRecDepth 8192 in
set_option maxHeartbeats 4000000 in
theorem val1_v38 (V0 : Valuation τ sig (Elt F)) :
    val1 V0 (no_index (Proc.devRef .tc main_v38)) = RefTerm.head (F := F) (V0 (Proc.devRef .tc main_arg0)) := by
  unfold val1
  simp only [ops0]
  after_results_simp
  rfl

set_option maxRecDepth 8192 in
set_option maxHeartbeats 4000000 in
theorem val1_v44 (V0 : Valuation τ sig (Elt F)) :
    val1 V0 (no_index (Proc.devRef .tc main_v44)) = RefTerm.body (F := F) (V0 (Proc.devRef .tc main_arg0)) := by
  unfold val1
  simp only [ops0]
  after_results_simp
  rfl

set_option maxRecDepth 8192 in
set_option maxHeartbeats 4000000 in
theorem val1_v47 (V0 : Valuation τ sig (Elt F)) :
    val1 V0 (no_index (Proc.devRef .tc main_v47)) = RefTerm.flatCond (F := F) (V0 (Proc.devRef .tc main_arg0)) := by
  unfold val1
  simp only [ops0]
  after_results_simp
  rfl

set_option maxRecDepth 8192 in
set_option maxHeartbeats 4000000 in
theorem val1_v50 (V0 : Valuation τ sig (Elt F)) :
    val1 V0 (no_index (Proc.devRef .tc main_v50)) = shapeCast S8192 (Host.divf (RefTerm.delta (F := F) (V0 (Proc.devRef .tc main_arg0))) (RefTerm.splat3 0x40000000#32)) shapeCasts_S8x32x32_S8192 := by
  unfold val1
  simp only [ops0]
  after_results_simp
  rfl

set_option maxRecDepth 8192 in
set_option maxHeartbeats 4000000 in
theorem val1_v51 (V0 : Valuation τ sig (Elt F)) :
    val1 V0 (no_index (Proc.devRef .tc main_v51)) = extui 32 (RefTerm.flatCond (F := F) (V0 (Proc.devRef .tc main_arg0))) natLt_1_32 := by
  unfold val1
  simp only [ops0]
  after_results_simp
  rfl

/-- The buffers' contents after both windows. -/
def val2 (V0 : Valuation τ sig (Elt F)) : Valuation τ sig (Elt F) := after ops1 (val1 V0)

set_option maxRecDepth 8192 in
set_option maxHeartbeats 4000000 in
/-- Nor does the second. -/
theorem val2_arg0 (V0 : Valuation τ sig (Elt F)) :
    val2 V0 (no_index (Proc.devRef .tc main_arg0)) = V0 (Proc.devRef .tc main_arg0) := by
  unfold val2
  simp only [ops1]
  after_results_simp
  exact val1_arg0 V0

end Cert.ReferenceIdeal.RefRun

end
-- ==== Proof.RefRun.lean ====
/-
  The reference program's run: every weakly fair execution of @main ends with the result buffer holding
  `RefTerm.result` of the argument array and the argument array unchanged. The second window's operations are composed
  over what the first window left (RefOps.lean), and the composition is the reference term by unfolding its named parts.
-/
import proofs.«118274_j26998164423204_2_alg».proof.Proof.RefOps

set_option Elab.async false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

attribute [local instance] Cert.ReferenceIdeal.Gen.facts

attribute [local irreducible] Host.reduceWindow Host.scatter Host.reduceAdd in
set_option maxRecDepth 8192 in
set_option maxHeartbeats 4000000 in
/-- The result buffer after both windows: the second window's operations composed over what the first left in the five
    buffers it reads, which is the reference term. -/
theorem val2_v75 (V0 : Valuation τ sig (Elt F)) :
    val2 V0 (no_index (Proc.devRef .tc main_v75)) = RefTerm.result (F := F) (V0 (Proc.devRef .tc main_arg0)) := by
  unfold val2
  simp only [ops1]
  after_results_simp
  try dsimp only [Matrix.cons_val]
  try after_results_simp
  simp only [val1_v38, val1_v44, val1_v47, val1_v50, val1_v51]
  simp only [RefTerm.result, RefTerm.tail, RefTerm.scatterIdx, RefTerm.updates, RefTerm.rows, RefTerm.clipRows,
    RefTerm.prefixSum, RefTerm.wrapNeg, stack3, pairCols]
  rfl

theorem after_ops (V0 : Valuation τ sig (Elt F)) : after ops V0 = val2 V0 := by
  simp only [ops, after_app]
  rfl

set_option maxRecDepth 8192 in
/-- On every device, for any float values, from any memory with zero counters: every weakly fair execution of @main
    terminates, the result buffer holding the reference term of the argument array, the argument array unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v75) = RefTerm.result (F := F) (m ((c.tc : Thread nD τ).loc main_arg0))
      ∧ r.2.mem ((c.tc : Thread nD τ).loc main_arg0) = m ((c.tc : Thread nD τ).loc main_arg0)) :=
  (θ_run defs _ _).mono (fun _ h c => ⟨(h c main_v75).trans (by simp only [after_ops]; exact val2_v75 (launchContents m c)),
      (h c main_arg0).trans (by simp only [after_ops]; exact val2_arg0 (launchContents m c))⟩)
    (run_seq scopedRefs_eq scopedSems_eq defs main (fun _ => ops) main_eq (fun _ => ops_sub) m ρ)

end Cert.ReferenceIdeal.RefRun

end
-- ==== Proof.ZonoScalar.lean ====
/-
  The scalar mathematics of one content position, on the extended reals.

  From a lower and an upper bound l ≤ u of a quantity with centre x0 the transformer computes the crossing mask
  c = [l·u < 0], the nonnegative mask n = [0 ≤ l], a slope lam, the new error magnitude delta = max(−lam·l, (1 − lam)·u),
  the new centre (delta/2 + lam·x0)·c + x0·n, the scale lam·c + n of the old error terms, and the scattered value
  delta/2 where c > 0 (zero elsewhere). Two spellings of the slope are compared: one divides the product c·u by u − l
  (and is junk where u = l), the other multiplies c by the quotient u/(u − l) and takes the value 1/2 where u = l.
  For REAL bounds they give the same three outputs: where u ≠ l the two slopes are one number (a quotient by a nonzero
  real is a product with its reciprocal, and products associate); where u = l the product l·u is a square, so c = 0, and
  each output multiplies the slope by c or selects on c > 0, so the slope does not matter.
  The constants one, two, half stay parameters: the programs spell them by the same words on both sides.
-/
import Idealize.ShloMosaic.PureOps.Ideal

noncomputable section

namespace Cert.Zono

open Idealize.ShloMosaic

/-- The crossing mask of the bounds, as a number. -/
def crossS (l u : EReal) : EReal := if l * u < 0 then ((1 : ℝ) : EReal) else ((0 : ℝ) : EReal)
/-- The nonnegative mask of the lower bound, as a number. -/
def nonnegS (l : EReal) : EReal := if 0 ≤ l then ((1 : ℝ) : EReal) else ((0 : ℝ) : EReal)

/-- The slope, dividing the product c·u by the width. -/
def slopeR (l u : EReal) : EReal := nonnegS l + Ideal.div (crossS l u * u) (u - l)
/-- The slope, multiplying c by the quotient of u by the width made safe, with the value half on a zero width. -/
def slopeK (one half l u : EReal) : EReal :=
  if u - l = 0 then half else nonnegS l + crossS l u * Ideal.div u (if u - l = 0 then one else u - l)

/-- The new error magnitude. -/
def deltaS (one lam l u : EReal) : EReal := max (-lam * l) ((one - lam) * u)
/-- The new centre. -/
def headS (one two lam l u x0 : EReal) : EReal :=
  (Ideal.div (deltaS one lam l u) two + lam * x0) * crossS l u + x0 * nonnegS l
/-- The scale of the old error terms. -/
def scaleS (lam l u : EReal) : EReal := lam * crossS l u + nonnegS l
/-- The scattered value. -/
def halfS (one two lam l u : EReal) : EReal := if 0 < crossS l u then Ideal.div (deltaS one lam l u) two else 0

/-- Equal real bounds do not cross: their product is a square. -/
theorem crossS_self (a : ℝ) : crossS (a : EReal) (a : EReal) = 0 := by
  unfold crossS
  rw [if_neg]
  · exact EReal.coe_zero
  · rw [← EReal.coe_mul, ← EReal.coe_zero, EReal.coe_lt_coe_iff]
    exact not_lt.mpr (mul_self_nonneg a)

/-- Off a zero width the two slopes are one number. -/
theorem slopeK_eq_slopeR (one half : EReal) (lr ur : ℝ) (h : ur ≠ lr) :
    slopeK one half (lr : EReal) (ur : EReal) = slopeR (lr : EReal) (ur : EReal) := by
  have hw : ((ur : EReal) - (lr : EReal)) = ((ur - lr : ℝ) : EReal) := (EReal.coe_sub ur lr).symm
  have hne : (ur - lr : ℝ) ≠ 0 := sub_ne_zero.mpr h
  have hne' : ((ur : EReal) - (lr : EReal)) ≠ 0 := by rw [hw]; exact_mod_cast hne
  unfold slopeK slopeR
  rw [if_neg hne', if_neg hne', hw, Ideal.div_coe hne, Ideal.div_coe hne, mul_assoc]

/-- For real bounds the three outputs do not depend on which slope is taken. -/
theorem outputs_eq (one two half x0 xi : EReal) (lr ur : ℝ) :
    headS one two (slopeK one half lr ur) lr ur x0 = headS one two (slopeR lr ur) lr ur x0
    ∧ xi * scaleS (slopeK one half lr ur) lr ur = xi * scaleS (slopeR lr ur) lr ur
    ∧ halfS one two (slopeK one half lr ur) lr ur = halfS one two (slopeR lr ur) lr ur := by
  by_cases h : ur = lr
  · subst h
    have hc : crossS (ur : EReal) (ur : EReal) = 0 := crossS_self ur
    refine ⟨?_, ?_, ?_⟩
    · unfold headS; rw [hc, mul_zero, mul_zero]
    · unfold scaleS; rw [hc, mul_zero, mul_zero]
    · unfold halfS; rw [hc, if_neg (lt_irrefl _), if_neg (lt_irrefl _)]
  · rw [slopeK_eq_slopeR one half lr ur h]
    exact ⟨rfl, rfl, rfl⟩

end Cert.Zono

end
-- ==== Proof.ZonoColumn.lean ====
/-
  One content position as a column of 64 extended reals: entry 0 the centre, entries 1…63 the error terms.
  The radius is the sum of the error terms' absolute values, the bounds are centre ± radius, and the three outputs
  (new centre, scaled error terms, scattered value) are the scalar transformer's at those bounds, in the two
  spellings of the slope. When every entry of the column is a real number the bounds are real, and the two spellings
  give the same outputs (ZonoScalar's `outputs_eq`). The float constants are kept as the programs' own 32-bit words;
  only the zero word is ever evaluated.
-/
import proofs.«118274_j26998164423204_2_alg».proof.Proof.ZonoScalar
import Idealize.ShloMosaic.PureOps.Ideal.Laws

noncomputable section

open scoped BigOperators

namespace Cert.Zono

open Idealize.ShloMosaic

/-- The programs' float constants, by their words. -/
abbrev Z32 : EReal := Ideal.ofBits .f32 0x00000000#32
abbrev One32 : EReal := Ideal.ofBits .f32 0x3F800000#32
abbrev Two32 : EReal := Ideal.ofBits .f32 0x40000000#32
abbrev Half32 : EReal := Ideal.ofBits .f32 0x3F000000#32

theorem Z32_eq : Z32 = 0 := Ideal.ofBits_zero_f32

/-- The radius of a column: the sum of the absolute values of its error terms. -/
def radiusC (col : Fin 64 → EReal) : EReal := ∑ i : Fin 63, max (col i.succ) (-(col i.succ))
def upperC (col : Fin 64 → EReal) : EReal := col 0 + radiusC col
def lowerC (col : Fin 64 → EReal) : EReal := col 0 - radiusC col

/-- The crossing mask of a column. -/
def crossC (col : Fin 64 → EReal) : EReal := crossS (lowerC col) (upperC col)

/-- The slope in the safe-quotient spelling and in the quotient-of-the-product spelling. -/
def slopeKC (col : Fin 64 → EReal) : EReal := slopeK One32 Half32 (lowerC col) (upperC col)
def slopeRC (col : Fin 64 → EReal) : EReal := slopeR (lowerC col) (upperC col)

/-- The new centre, in the two spellings. -/
def headKC (col : Fin 64 → EReal) : EReal := headS One32 Two32 (slopeKC col) (lowerC col) (upperC col) (col 0)
def headRC (col : Fin 64 → EReal) : EReal := headS One32 Two32 (slopeRC col) (lowerC col) (upperC col) (col 0)
/-- The scaled error term i, in the two spellings. -/
def bodyKC (col : Fin 64 → EReal) (i : Fin 63) : EReal := col i.succ * scaleS (slopeKC col) (lowerC col) (upperC col)
def bodyRC (col : Fin 64 → EReal) (i : Fin 63) : EReal := col i.succ * scaleS (slopeRC col) (lowerC col) (upperC col)
/-- The scattered value, in the two spellings. -/
def valKC (col : Fin 64 → EReal) : EReal := halfS One32 Two32 (slopeKC col) (lowerC col) (upperC col)
def valRC (col : Fin 64 → EReal) : EReal := halfS One32 Two32 (slopeRC col) (lowerC col) (upperC col)

/-- A finite sum of real numbers, on the extended reals, is the real sum. -/
theorem coe_sum_fin {n : Nat} (g : Fin n → ℝ) : (∑ i : Fin n, ((g i : ℝ) : EReal)) = ((∑ i : Fin n, g i : ℝ) : EReal) := by
  induction (Finset.univ : Finset (Fin n)) using Finset.induction_on with
  | empty => simp
  | insert a s ha ih => rw [Finset.sum_insert ha, Finset.sum_insert ha, ih, EReal.coe_add]

/-- A column of real numbers has real bounds. -/
theorem real_bounds (col : Fin 64 → EReal) (hreal : ∀ i, ∃ r : ℝ, col i = r) :
    ∃ lr ur : ℝ, lowerC col = lr ∧ upperC col = ur := by
  choose g hg using hreal
  have hrad : radiusC col = ((∑ i : Fin 63, max (g i.succ) (-(g i.succ)) : ℝ) : EReal) := by
    unfold radiusC
    rw [← coe_sum_fin]
    refine Finset.sum_congr rfl fun i _ => ?_
    rw [hg i.succ, ← EReal.coe_neg, ← EReal.coe_strictMono.monotone.map_max]
  refine ⟨g 0 - ∑ i : Fin 63, max (g i.succ) (-(g i.succ)), g 0 + ∑ i : Fin 63, max (g i.succ) (-(g i.succ)), ?_, ?_⟩
  · unfold lowerC; rw [hrad, hg 0, ← EReal.coe_sub]
  · unfold upperC; rw [hrad, hg 0, ← EReal.coe_add]

/-- On a column of real numbers the two spellings give the same outputs. -/
theorem column_eq (col : Fin 64 → EReal) (hreal : ∀ i, ∃ r : ℝ, col i = r) :
    headKC col = headRC col ∧ (∀ i, bodyKC col i = bodyRC col i) ∧ valKC col = valRC col := by
  obtain ⟨lr, ur, hl, hu⟩ := real_bounds col hreal
  unfold headKC headRC bodyKC bodyRC valKC valRC slopeKC slopeRC
  rw [hl, hu]
  exact ⟨(outputs_eq One32 Two32 Half32 (col 0) 0 lr ur).1,
    fun i => (outputs_eq One32 Two32 Half32 (col 0) (col i.succ) lr ur).2.1,
    (outputs_eq One32 Two32 Half32 (col 0) 0 lr ur).2.2⟩

end Cert.Zono

end
-- ==== Proof.ZonoWords.lean ====
/-
  The programs' one-bit tests and selects on extended reals, as conditions.

  A comparison gives one bit; the kernel widens the bit to 32 bits and converts it as a signed word, the reference
  converts the bit itself as an unsigned word: both are the number 1 where the comparison holds and 0 where it does not.
  A select on a comparison's bit is an if-then-else on the comparison. Comparisons are against the zero word, which
  denotes the number 0. An extended real is never unordered with itself.
-/
import proofs.«118274_j26998164423204_2_alg».proof.Proof.ZonoColumn
import Idealize.ShloMosaic.Lib.ValueIdx

noncomputable section

namespace Cert.Zono

open Idealize.ShloMosaic

/-- A decided proposition's bit, widened and read signed, is its indicator. -/
theorem ind_signed (P : Prop) [Decidable P] :
    ((((BitVec.ofBool (decide P)).setWidth 32).toInt : ℝ) : EReal) = if P then ((1 : ℝ) : EReal) else ((0 : ℝ) : EReal) := by
  by_cases h : P
  · rw [if_pos h, decide_eq_true h, show ((BitVec.ofBool true).setWidth 32).toInt = 1 from by decide]; norm_num
  · rw [if_neg h, decide_eq_false h, show ((BitVec.ofBool false).setWidth 32).toInt = 0 from by decide]; norm_num

/-- A decided proposition's bit, read unsigned, is its indicator. -/
theorem ind_unsigned (P : Prop) [Decidable P] :
    ((((BitVec.ofBool (decide P)).toNat : ℝ)) : EReal) = if P then ((1 : ℝ) : EReal) else ((0 : ℝ) : EReal) := by
  by_cases h : P
  · rw [if_pos h, decide_eq_true h, show (BitVec.ofBool true).toNat = 1 from by decide]; norm_num
  · rw [if_neg h, decide_eq_false h, show (BitVec.ofBool false).toNat = 0 from by decide]; norm_num

/-- A select on a decided proposition's bit is the if-then-else. -/
theorem select_decide {α : Type} (P : Prop) [Decidable P] (A B : α) :
    Scalar.select (BitVec.ofBool (decide P)) A B = if P then A else B := by
  by_cases h : P
  · rw [if_pos h, decide_eq_true h]; exact ValueIdx.select_one A B
  · rw [if_neg h, decide_eq_false h]; exact ValueIdx.select_zero A B

/-- The crossing mask as the kernel computes it (the bit widened, read signed). -/
theorem cross_signed (a : EReal) :
    FloatOps.sitofp (F := Ideal) .f32 ((FloatOps.cmpf (F := Ideal) (φ := .f32) .olt a Z32).setWidth 32)
      = if a < 0 then ((1 : ℝ) : EReal) else ((0 : ℝ) : EReal) := by
  show ((((BitVec.ofBool (decide (a < Z32))).setWidth 32).toInt : ℝ) : EReal) = _
  rw [ind_signed, Z32_eq]

/-- The crossing mask as the reference computes it (the bit read unsigned). -/
theorem cross_unsigned (a : EReal) :
    FloatOps.uitofp (F := Ideal) .f32 (FloatOps.cmpf (F := Ideal) (φ := .f32) .olt a Z32)
      = if a < 0 then ((1 : ℝ) : EReal) else ((0 : ℝ) : EReal) := by
  show ((((BitVec.ofBool (decide (a < Z32))).toNat : ℝ)) : EReal) = _
  rw [ind_unsigned, Z32_eq]

/-- The nonnegative mask, the kernel's way and the reference's way. -/
theorem nonneg_signed (l : EReal) :
    FloatOps.sitofp (F := Ideal) .f32 ((FloatOps.cmpf (F := Ideal) (φ := .f32) .oge l Z32).setWidth 32)
      = if 0 ≤ l then ((1 : ℝ) : EReal) else ((0 : ℝ) : EReal) := by
  show ((((BitVec.ofBool (decide (Z32 ≤ l))).setWidth 32).toInt : ℝ) : EReal) = _
  rw [ind_signed, Z32_eq]

theorem nonneg_unsigned (l : EReal) :
    FloatOps.uitofp (F := Ideal) .f32 (FloatOps.cmpf (F := Ideal) (φ := .f32) .oge l Z32)
      = if 0 ≤ l then ((1 : ℝ) : EReal) else ((0 : ℝ) : EReal) := by
  show ((((BitVec.ofBool (decide (Z32 ≤ l))).toNat : ℝ)) : EReal) = _
  rw [ind_unsigned, Z32_eq]

/-- A select on "equal to the zero word". -/
theorem select_oeq_zero {α : Type} (a : EReal) (A B : α) :
    Scalar.select (FloatOps.cmpf (F := Ideal) (φ := .f32) .oeq a Z32) A B = if a = 0 then A else B := by
  show Scalar.select (BitVec.ofBool (decide (a = Z32))) A B = _
  rw [select_decide, Z32_eq]

/-- A select on "above the zero word". -/
theorem select_ogt_zero {α : Type} (c : EReal) (A B : α) :
    Scalar.select (FloatOps.cmpf (F := Ideal) (φ := .f32) .ogt c Z32) A B = if 0 < c then A else B := by
  show Scalar.select (BitVec.ofBool (decide (Z32 < c))) A B = _
  rw [select_decide, Z32_eq]

/-- A select on "unordered with or different from itself" takes the second branch. -/
theorem select_une_self {α : Type} (a : EReal) (A B : α) :
    Scalar.select (FloatOps.cmpf (F := Ideal) (φ := .f32) .une a a) A B = B := by
  show Scalar.select (BitVec.ofBool (decide (a ≠ a))) A B = _
  rw [select_decide, if_neg (fun h => h rfl)]

end Cert.Zono

end
-- ==== Proof.LibColumnSum.lean ====
/-
  A sum over the FIRST axis of a rank-2 vector read at an index, at the ideal values: at column `b` it is the sum over the
  row coordinate (`colSum2_apply`) — the companion of a row sum (over the second axis). With a unit second extent it is the
  sum of a column vector [n, 1] into [1], the second step of a `keepdims` reduction of a block to one number.
-/
import Idealize.ShloMosaic.PureOps.Ideal.Laws
import Idealize.ShloMosaic.Lib.ValueIdx

noncomputable section

open scoped BigOperators

namespace Idealize.ShloMosaic.ColumnSum

open Idealize.ShloMosaic Idealize.ShloMosaic.ValueIdx

/-- A sum over the first axis of a rank-2 vector, at column `b`: the sum over the row coordinate. -/
theorem colSum2_apply {n0 n1 : Nat} {φ : FTy} (v : FVec Ideal ⟨2, ![n0, n1]⟩ φ) (acc : BitVec φ.bits)
    (h : (⟨2, ![n0, n1]⟩ : Shape).Reduces [0] ⟨1, ![n1]⟩) (hφ : FKind.Formats φ) (hacc : acc = FKind.add.neutral φ hφ)
    (b : Fin n1) :
    multiReduction .add [0] ⟨1, ![n1]⟩ v acc h hφ hacc (ix1 b) = ∑ a : Fin n0, v (ix2 a b) :=
  (Ideal.multiReduction_add_single v acc h hφ hacc (ix1 b)).trans
    (Finset.sum_congr rfl fun k _ => congrArg v (funext fun d => Fin.ext (by
      match d with | ⟨0, _⟩ => rfl | ⟨1, _⟩ => rfl)))

end Idealize.ShloMosaic.ColumnSum

end
-- ==== Proof.ColumnK.lean ====
/-
  The first kernel's stored values, read at a column.

  The kernel loads the whole [64, 8192] block X. Column k of X is a content position: X(0, k) the centre,
  X(1…63, k) the error terms. Each value the kernel computes along the way is, at column k, the scalar transformer's
  quantity of that column (ZonoColumn): the radius (a sum over the first axis), the bounds, the masks (a bit widened and
  read signed), the slope in the safe-quotient spelling, the new error magnitude, and the three stored arrays — the
  head-and-body block (row 0 the new centre, row i + 1 the scaled error term i), the crossing mask, and the scattered value.
-/
import proofs.«118274_j26998164423204_2_alg».proof.Proof.Gen.KernelIdeal.Skeleton
import proofs.«118274_j26998164423204_2_alg».proof.Proof.ZonoWords
import proofs.«118274_j26998164423204_2_alg».proof.Proof.LibColumnSum
import Idealize.ShloMosaic.Lib.ValueLayout
import Idealize.ShloMosaic.Lib.Pipeline.Value
import Idealize.ShloMosaic.Lib.ValueIdx

noncomputable section

open scoped BigOperators

namespace Cert.KernelIdeal.ColumnK

open Idealize.ShloMosaic Idealize.ShloMosaic.ValueIdx Cert.KernelIdeal Cert.KernelIdeal.Gen Cert.Zono

/-- Column k of a [64, 8192] block. -/
def colOf (X : Vec Ideal S64x8192 .f32) (k : Fin 8192) : Fin 64 → EReal := fun i => X (ix2 i k)

variable (X : Vec Ideal S64x8192 .f32)

theorem pay2_apply (i : Fin 64) (k : Fin 8192) : k0_pay2 X (ix2 i k) = X (ix2 i k) := by
  unfold k0_pay2
  exact congrFun (shapeCast_self X _) (ix2 i k)

theorem pay3_apply (u : Fin 1) (k : Fin 8192) : k0_pay3 X (ix2 u k) = X (ix2 (0 : Fin 64) k) := by
  unfold k0_pay3
  have hu : u.val = 0 := by omega
  exact (slice2_axis0_apply 0 (k0_pay2 X) _ u k (0 : Fin 64) (by rw [hu]; rfl)).trans (pay2_apply X 0 k)

/-- The radius: the sum over the first axis of the absolute values of rows 1…63. -/
theorem pay4_apply (u : Fin 1) (k : Fin 8192) : k0_pay4 X (ix2 u k) = radiusC (colOf X k) := by
  unfold k0_pay4
  try dsimp only
  refine (shapeCast_a_1a_apply _ _ u k).trans ?_
  refine (ColumnSum.colSum2_apply _ _ _ _ _ k).trans ?_
  unfold radiusC
  refine Finset.sum_congr rfl fun a _ => ?_
  show FloatOps.absf (extractStridedSlice S63x8192 ![1, 0] (k0_pay2 X) _ (ix2 a k)) = _
  rw [Ideal.absf_def, slice2_axis0_apply 1 (k0_pay2 X) _ a k a.succ (by rw [Fin.val_succ]; omega), pay2_apply]
  rfl

/-! The pointwise values, each from the ones before it. -/

theorem pay5_apply (i : S1x8192.Idx) : k0_pay5 X i = k0_pay3 X i + k0_pay4 X i := rfl
theorem pay6_apply (i : S1x8192.Idx) : k0_pay6 X i = k0_pay3 X i - k0_pay4 X i := rfl
theorem pay7_apply (i : S1x8192.Idx) : k0_pay7 X i
    = FloatOps.sitofp (F := Ideal) .f32 ((FloatOps.cmpf (F := Ideal) (φ := .f32) .olt (k0_pay6 X i * k0_pay5 X i) Z32).setWidth 32) := rfl
theorem pay8_apply (i : S1x8192.Idx) : k0_pay8 X i
    = FloatOps.sitofp (F := Ideal) .f32 ((FloatOps.cmpf (F := Ideal) (φ := .f32) .oge (k0_pay6 X i) Z32).setWidth 32) := rfl
theorem pay9_apply (i : S1x8192.Idx) : k0_pay9 X i
    = Scalar.select (FloatOps.cmpf (F := Ideal) (φ := .f32) .oeq (k0_pay5 X i - k0_pay6 X i) Z32) Half32
        (k0_pay8 X i + k0_pay7 X i * Ideal.div (k0_pay5 X i)
          (Scalar.select (FloatOps.cmpf (F := Ideal) (φ := .f32) .oeq (k0_pay5 X i - k0_pay6 X i) Z32) One32 (k0_pay5 X i - k0_pay6 X i))) := rfl
theorem pay10_apply (i : S1x8192.Idx) : k0_pay10 X i
    = max ((Z32 - k0_pay9 X i) * k0_pay6 X i) ((One32 - k0_pay9 X i) * k0_pay5 X i) := rfl
theorem pay1_apply (c δ : FVec Ideal S1x8192 .f32) (i : S1x8192.Idx) : k0_pay1 c δ i
    = Scalar.select (FloatOps.cmpf (F := Ideal) (φ := .f32) .ogt (c i) Z32) (Ideal.div (δ i) Two32) Z32 := rfl

/-! The same at column k, as the column's scalar quantities. -/

theorem upper_col (u : Fin 1) (k : Fin 8192) : k0_pay5 X (ix2 u k) = upperC (colOf X k) := by
  rw [pay5_apply, pay3_apply, pay4_apply]; rfl

theorem lower_col (u : Fin 1) (k : Fin 8192) : k0_pay6 X (ix2 u k) = lowerC (colOf X k) := by
  rw [pay6_apply, pay3_apply, pay4_apply]; rfl

theorem cross_col (u : Fin 1) (k : Fin 8192) : k0_pay7 X (ix2 u k) = crossC (colOf X k) := by
  rw [pay7_apply, lower_col, upper_col, cross_signed]; rfl

theorem nonneg_col (u : Fin 1) (k : Fin 8192) : k0_pay8 X (ix2 u k) = nonnegS (lowerC (colOf X k)) := by
  rw [pay8_apply, lower_col, nonneg_signed]; rfl

theorem slope_col (u : Fin 1) (k : Fin 8192) : k0_pay9 X (ix2 u k) = slopeKC (colOf X k) := by
  rw [pay9_apply, upper_col, lower_col, nonneg_col, cross_col, select_oeq_zero, select_oeq_zero]; rfl

theorem delta_col (u : Fin 1) (k : Fin 8192) :
    k0_pay10 X (ix2 u k) = deltaS One32 (slopeKC (colOf X k)) (lowerC (colOf X k)) (upperC (colOf X k)) := by
  rw [pay10_apply, slope_col, lower_col, upper_col, Z32_eq, zero_sub]; rfl

/-- The scattered value at column k. -/
theorem val_col (u : Fin 1) (k : Fin 8192) : k0_pay1 (k0_pay7 X) (k0_pay10 X) (ix2 u k) = valKC (colOf X k) := by
  rw [pay1_apply, cross_col, delta_col, select_ogt_zero, Z32_eq]; rfl

/-- Row 0 of the head-and-body block at column k: the new centre. -/
theorem head_col (k : Fin 8192) : k0_pay11 X (ix2 (0 : Fin 64) k) = headKC (colOf X k) := by
  unfold k0_pay11
  try dsimp only
  refine (concatenate_pair_apply_left (t := S64x8192) (s₁ := S1x8192) (s₂ := S63x8192) _ _ _ _ (ix2 (0 : Fin 64) k) rfl (ix2 (0 : Fin 1) k) (fun b => by
    match b with
    | ⟨0, _⟩ => rfl
    | ⟨1, _⟩ => rfl)).trans ?_
  show (Ideal.div (k0_pay10 X (ix2 (0 : Fin 1) k)) Two32 + k0_pay9 X (ix2 (0 : Fin 1) k) * k0_pay3 X (ix2 (0 : Fin 1) k))
      * k0_pay7 X (ix2 (0 : Fin 1) k) + k0_pay3 X (ix2 (0 : Fin 1) k) * k0_pay8 X (ix2 (0 : Fin 1) k) = _
  rw [delta_col, slope_col, pay3_apply, cross_col, nonneg_col]; rfl

/-- Row i + 1 of the head-and-body block at column k: the scaled error term i. -/
theorem body_col (i : Fin 63) (k : Fin 8192) : k0_pay11 X (ix2 i.succ k) = bodyKC (colOf X k) i := by
  unfold k0_pay11
  try dsimp only
  refine (concatenate_pair_apply_right (t := S64x8192) (s₁ := S1x8192) (s₂ := S63x8192) _ _ _ _ (ix2 i.succ k) rfl rfl (ix2 i k) (fun b hb => by
    match b with
    | ⟨0, _⟩ => exact absurd rfl hb
    | ⟨1, _⟩ => rfl) (by show i.val + 1 = (i.succ).val; rw [Fin.val_succ])).trans ?_
  show extractStridedSlice S63x8192 ![1, 0] (k0_pay2 X) _ (ix2 i k)
      * broadcastTo S63x8192 (fun j => k0_pay9 X j * k0_pay7 X j + k0_pay8 X j) _ (ix2 i k) = _
  rw [slice2_axis0_apply 1 (k0_pay2 X) _ i k i.succ (by rw [Fin.val_succ]; omega), pay2_apply,
    broadcastTo_1b_ab_apply _ _ i k]
  show X (ix2 i.succ k) * (k0_pay9 X (ix2 (0 : Fin 1) k) * k0_pay7 X (ix2 (0 : Fin 1) k) + k0_pay8 X (ix2 (0 : Fin 1) k)) = _
  rw [slope_col, cross_col, nonneg_col]; rfl

end Cert.KernelIdeal.ColumnK

end
-- ==== Proof.ColumnR.lean ====
/-
  The reference's arrays, read at a content position.

  At position (c, h, w) the argument's column — x(0, c, h, w) the centre, x(1…63, c, h, w) the error terms — gives, in
  the reference's own order of operations: the radius (the host's sum over the first axis, from the zero word), the
  bounds, the masks (a bit read unsigned), the slope in the quotient-of-the-product spelling (its repair never fires: an
  extended real is not unordered with itself), the new error magnitude, the new centre, the scaled error terms; and at
  the flat position (c·32 + h)·32 + w the crossing condition and the scattered value. Each is the column's scalar quantity.
-/
import proofs.«118274_j26998164423204_2_alg».proof.Proof.RefTerm
import proofs.«118274_j26998164423204_2_alg».proof.Proof.ZonoWords
import Idealize.ShloMosaic.Lib.ValueLayout
import Idealize.ShloMosaic.Lib.Pipeline.Value
import Idealize.ShloMosaic.Lib.ValueIdx
import Idealize.ShloMosaic.Lib.IdealHost

noncomputable section

open scoped BigOperators

namespace Cert.ReferenceIdeal.ColumnR

open Idealize.ShloMosaic Idealize.ShloMosaic.ValueIdx Cert.ReferenceIdeal Cert.ReferenceIdeal.RefTerm Cert.Zono

/-- The flat position of (c, h, w) in row-major order. -/
def fl (c : Fin 8) (h w : Fin 32) : Fin 8192 := ⟨(c.val * 32 + h.val) * 32 + w.val, by omega⟩

/-- Every flat position is one. -/
theorem fl_surj (k : Fin 8192) : ∃ (c : Fin 8) (h w : Fin 32), k = fl c h w :=
  ⟨⟨k.val / 1024, by omega⟩, ⟨k.val / 32 % 32, by omega⟩, ⟨k.val % 32, by omega⟩, Fin.ext (by show k.val = (k.val / 1024 * 32 + k.val / 32 % 32) * 32 + k.val % 32; omega)⟩

/-- The argument's column at a content position. -/
def colOf (x : FVec Ideal S64x8x32x32 .f32) (c : Fin 8) (h w : Fin 32) : Fin 64 → EReal := fun i => x (ix4 i c h w)

/-- The host's sum over the first axis of a rank-4 array, at (j, k, l). -/
theorem hostSum4_first_apply {a b c d : Nat} (h' : (⟨4, ![a, b, c, d]⟩ : Shape).ReducesTo [0] ⟨3, ![b, c, d]⟩)
    (h : (⟨4, ![a, b, c, d]⟩ : Shape).Reduces [0] ⟨3, ![b, c, d]⟩) (x : (⟨4, ![a, b, c, d]⟩ : Shape).Idx → EReal) (init : EReal)
    (j : Fin b) (k : Fin c) (l : Fin d) :
    Ideal.hostReduceAdd h' x init (ix3 j k l) = init + ∑ i : Fin a, x (ix4 i j k l) :=
  (Ideal.hostReduceAdd_single h' h x init (ix3 j k l)).trans
    (congrArg (init + ·) (Finset.sum_congr rfl fun i _ => congrArg x (funext fun e => Fin.ext (by
      match e with | ⟨0, _⟩ => rfl | ⟨1, _⟩ => rfl | ⟨2, _⟩ => rfl | ⟨3, _⟩ => rfl))))

variable (x : FVec Ideal S64x8x32x32 .f32) (c : Fin 8) (h w : Fin 32)

theorem centre_apply : centre x (ix3 c h w) = x (ix4 (0 : Fin 64) c h w) := by
  unfold centre
  refine (shapeCast_1abc_abc_apply _ _ c h w).trans ?_
  exact extractStridedSlice_apply _ x _ (ix4 (0 : Fin 1) c h w) (ix4 (0 : Fin 64) c h w) (fun a => by
    match a with
    | ⟨0, _⟩ => rfl
    | ⟨1, _⟩ => exact (Nat.zero_add _).symm
    | ⟨2, _⟩ => exact (Nat.zero_add _).symm
    | ⟨3, _⟩ => exact (Nat.zero_add _).symm)

theorem terms_apply (i : Fin 63) : terms x (ix4 i c h w) = x (ix4 i.succ c h w) := by
  unfold terms
  exact extractStridedSlice_apply _ x _ (ix4 i c h w) (ix4 i.succ c h w) (fun a => by
    match a with
    | ⟨0, _⟩ => show i.succ.val = 1 + i.val; rw [Fin.val_succ]; omega
    | ⟨1, _⟩ => exact (Nat.zero_add _).symm
    | ⟨2, _⟩ => exact (Nat.zero_add _).symm
    | ⟨3, _⟩ => exact (Nat.zero_add _).symm)

theorem splat3_apply (b : BitVec 32) (j : S8x32x32.Idx) : splat3 (F := Ideal) b j = Ideal.ofBits .f32 b :=
  (broadcastInDim_scalar_apply _ _ j).trans rfl

/-- The radius: the zero word plus the sum over the error terms of their absolute values. -/
theorem radius_apply : radius x (ix3 c h w) = radiusC (colOf x c h w) := by
  unfold radius
  rw [hostReduceAdd_apply]
  refine (hostSum4_first_apply _ (by decide) _ _ c h w).trans ?_
  show Z32 + _ = _
  rw [Z32_eq, zero_add]
  unfold radiusC
  refine Finset.sum_congr rfl fun i _ => ?_
  show FloatOps.hostAbsf (terms x (ix4 i c h w)) = _
  rw [Ideal.hostAbsf_def, Ideal.absf_def, terms_apply]
  rfl

theorem upper_apply : upper x (ix3 c h w) = upperC (colOf x c h w) := by
  show centre x (ix3 c h w) + radius x (ix3 c h w) = _
  rw [centre_apply, radius_apply]; rfl

theorem lower_apply : lower x (ix3 c h w) = lowerC (colOf x c h w) := by
  show centre x (ix3 c h w) - radius x (ix3 c h w) = _
  rw [centre_apply, radius_apply]; rfl

theorem cross_apply : cross x (ix3 c h w) = crossC (colOf x c h w) := by
  show FloatOps.uitofp (F := Ideal) .f32 (FloatOps.cmpf (F := Ideal) (φ := .f32) .olt
    (lower x (ix3 c h w) * upper x (ix3 c h w)) (splat3 (F := Ideal) 0x00000000#32 (ix3 c h w))) = _
  rw [splat3_apply, lower_apply, upper_apply, cross_unsigned]; rfl

theorem nonneg_apply : nonneg x (ix3 c h w) = nonnegS (lowerC (colOf x c h w)) := by
  show FloatOps.uitofp (F := Ideal) .f32 (FloatOps.cmpf (F := Ideal) (φ := .f32) .oge
    (lower x (ix3 c h w)) (splat3 (F := Ideal) 0x00000000#32 (ix3 c h w))) = _
  rw [splat3_apply, lower_apply, nonneg_unsigned]; rfl

theorem slope0_apply : slope0 x (ix3 c h w) = slopeRC (colOf x c h w) := by
  show nonneg x (ix3 c h w) + Ideal.div (cross x (ix3 c h w) * upper x (ix3 c h w)) (upper x (ix3 c h w) - lower x (ix3 c h w)) = _
  rw [nonneg_apply, cross_apply, upper_apply, lower_apply]; rfl

/-- The repair of the slope never fires. -/
theorem slope_apply : slope x (ix3 c h w) = slopeRC (colOf x c h w) := by
  show Scalar.select (FloatOps.cmpf (F := Ideal) (φ := .f32) .une (slope0 x (ix3 c h w)) (slope0 x (ix3 c h w))) _ (slope0 x (ix3 c h w)) = _
  rw [select_une_self, slope0_apply]

theorem delta_apply : delta x (ix3 c h w)
    = deltaS One32 (slopeRC (colOf x c h w)) (lowerC (colOf x c h w)) (upperC (colOf x c h w)) := by
  show max (-(slope x (ix3 c h w)) * lower x (ix3 c h w))
    ((splat3 (F := Ideal) 0x3F800000#32 (ix3 c h w) - slope x (ix3 c h w)) * upper x (ix3 c h w)) = _
  rw [splat3_apply, slope_apply, lower_apply, upper_apply]; rfl

/-- The new centre at a content position. -/
theorem head_apply : head x (ix3 c h w) = headRC (colOf x c h w) := by
  show (Ideal.div (delta x (ix3 c h w)) (splat3 (F := Ideal) 0x40000000#32 (ix3 c h w)) + slope x (ix3 c h w) * centre x (ix3 c h w))
      * cross x (ix3 c h w) + centre x (ix3 c h w) * nonneg x (ix3 c h w) = _
  rw [splat3_apply, delta_apply, slope_apply, centre_apply, cross_apply, nonneg_apply]; rfl

/-- The scaled error term i at a content position. -/
theorem body_apply (i : Fin 63) : body x (ix4 i c h w) = bodyRC (colOf x c h w) i := by
  unfold body
  show terms x (ix4 i c h w) * broadcastInDim S63x8x32x32 ![0, 1, 2, 3] _ (broadcastInDim S1x8x32x32 ![1, 2, 3] _
      (fun j => slope x j * cross x j + nonneg x j)) (ix4 i c h w) = _
  rw [broadcastInDim_apply _ _ _ (ix4 i c h w) (ix4 (0 : Fin 1) c h w) (fun a => by
      match a with
      | ⟨0, _⟩ => rfl
      | ⟨1, _⟩ => rfl
      | ⟨2, _⟩ => rfl
      | ⟨3, _⟩ => rfl),
    broadcastInDim_apply _ _ _ (ix4 (0 : Fin 1) c h w) (ix3 c h w) (fun a => by
      match a with
      | ⟨0, _⟩ => rfl
      | ⟨1, _⟩ => rfl
      | ⟨2, _⟩ => rfl)]
  show terms x (ix4 i c h w) * (slope x (ix3 c h w) * cross x (ix3 c h w) + nonneg x (ix3 c h w)) = _
  rw [terms_apply, slope_apply, cross_apply, nonneg_apply]; rfl

/-- A content-shaped array flattened, at the flat position of (c, h, w). -/
theorem flatten_apply {α : Type} (v : S8x32x32.Idx → α) (hc : S8x32x32.ShapeCasts S8192) :
    shapeCast S8192 v hc (ix1 (fl c h w)) = v (ix3 c h w) :=
  shapeCast_apply v hc _ _ (by rw [Shape.rowMajor_val_three, Shape.rowMajor_val_one]; rfl)

/-- The crossing condition at a flat position. -/
theorem flatCond_apply : flatCond x (ix1 (fl c h w))
    = FloatOps.cmpf (F := Ideal) (φ := .f32) .ogt (crossC (colOf x c h w)) Z32 := by
  show FloatOps.cmpf (F := Ideal) (φ := .f32) .ogt (shapeCast S8192 (cross x) _ (ix1 (fl c h w)))
    (broadcastInDim S8192 ![] _ (constant (F := Ideal) S_ .f32 0x00000000#32) (ix1 (fl c h w))) = _
  rw [flatten_apply, cross_apply, broadcastInDim_scalar_apply]; rfl

/-- The scattered value at a flat position. -/
theorem updates_apply : updates x (ix1 (fl c h w)) = valRC (colOf x c h w) := by
  show Scalar.select (flatCond x (ix1 (fl c h w)))
    (shapeCast S8192 (Host.divf (delta x) (splat3 (F := Ideal) 0x40000000#32)) _ (ix1 (fl c h w)))
    (broadcastInDim S8192 ![] _ (id (constant (F := Ideal) S_ .f32 0x00000000#32)) (ix1 (fl c h w))) = _
  rw [flatCond_apply, flatten_apply, broadcastInDim_scalar_apply, select_ogt_zero]
  show (if 0 < crossC (colOf x c h w) then Ideal.div (delta x (ix3 c h w)) (splat3 (F := Ideal) 0x40000000#32 (ix3 c h w)) else Z32) = _
  rw [delta_apply, splat3_apply, Z32_eq]; rfl

end Cert.ReferenceIdeal.ColumnR

end
-- ==== Proof.RefValue.lean ====
/-
  The reference's result, read at an index (R, c, h, w) of the [8256, 8, 32, 32] array.

  The result stacks three pieces along the first axis: row 0 is the new centre (a content-shaped array given a leading
  unit axis), rows 1…63 the scaled error terms, rows 64… the tail, a [8192, 8192] array whose second axis is reshaped
  back to the content shape: its entry (r, c, h, w) is the tail's entry at (r, flat position of (c, h, w)).
-/
import proofs.«118274_j26998164423204_2_alg».proof.Proof.ColumnR

noncomputable section

namespace Cert.ReferenceIdeal.RefValue

open Idealize.ShloMosaic Idealize.ShloMosaic.ValueIdx Cert.ReferenceIdeal Cert.ReferenceIdeal.RefTerm Cert.ReferenceIdeal.ColumnR

variable (x : FVec Ideal S64x8x32x32 .f32) (c : Fin 8) (h w : Fin 32)

/-- Row 0: the new centre. -/
theorem result_head : result x (ix4 (0 : Fin 8256) c h w) = head x (ix3 c h w) := by
  unfold result
  refine (concatenate_apply_piece (t := S8256x8x32x32) 0 _ _ (ix4 (0 : Fin 8256) c h w) 0 (by show 0 < 3; omega) S1x8x32x32 _ rfl rfl 0 rfl
    (ix4 (0 : Fin 1) c h w) (fun b hb => by
      match b with
      | ⟨0, _⟩ => exact absurd rfl hb
      | ⟨1, _⟩ => rfl
      | ⟨2, _⟩ => rfl
      | ⟨3, _⟩ => rfl) rfl).trans ?_
  exact broadcastInDim_apply _ _ _ (ix4 (0 : Fin 1) c h w) (ix3 c h w) (fun a => by
    match a with
    | ⟨0, _⟩ => rfl
    | ⟨1, _⟩ => rfl
    | ⟨2, _⟩ => rfl)

/-- Rows 1…63: the scaled error terms. -/
theorem result_body (i : Fin 63) (R : Fin 8256) (hR : R.val = i.val + 1) :
    result x (ix4 R c h w) = body x (ix4 i c h w) := by
  unfold result
  exact concatenate_apply_piece (t := S8256x8x32x32) 0 _ _ (ix4 R c h w) 1 (by show 1 < 3; omega) S63x8x32x32 _ rfl rfl 1 rfl
    (ix4 i c h w) (fun b hb => by
      match b with
      | ⟨0, _⟩ => exact absurd rfl hb
      | ⟨1, _⟩ => rfl
      | ⟨2, _⟩ => rfl
      | ⟨3, _⟩ => rfl) (by show 1 + i.val = R.val; omega)

/-- Rows 64…: the tail, its second axis folded back to the content shape. -/
theorem result_tail (r : Fin 8192) (R : Fin 8256) (hR : R.val = r.val + 64) :
    result x (ix4 R c h w) = tail x (ix2 r (fl c h w)) := by
  unfold result
  refine (concatenate_apply_piece (t := S8256x8x32x32) 0 _ _ (ix4 R c h w) 2 (by show 2 < 3; omega) S8192x8x32x32 _ rfl rfl 64 rfl
    (ix4 r c h w) (fun b hb => by
      match b with
      | ⟨0, _⟩ => exact absurd rfl hb
      | ⟨1, _⟩ => rfl
      | ⟨2, _⟩ => rfl
      | ⟨3, _⟩ => rfl) (by show 64 + r.val = R.val; omega)).trans ?_
  exact shapeCast_apply (tail x) _ (ix4 r c h w) (ix2 r (fl c h w)) (by
    rw [Shape.rowMajor_val_two, Shape.rowMajor_val_four]
    show r.val * 8192 + ((c.val * 32 + h.val) * 32 + w.val) = ((r.val * 8 + c.val) * 32 + h.val) * 32 + w.val
    omega)

end Cert.ReferenceIdeal.RefValue

end
-- ==== Proof.TailValue.lean ====
/-
  What the second kernel call of the program (the tail kernel, on a grid of 43 points) leaves in its output array
  [8256, 8192], as ONE index-by-index function of the three arrays it is entered with: the head-and-body block
  hb [64, 8192], the row words rows [1, 8192] and the values vals [1, 8192].

  Output block t is rows 192·t … 192·t + 191 of the array. Point 0 stores hb into rows 0…63 and, into rows 64…191, the
  tile whose entry (r, k) is vals k where rows k is the word r, and zero elsewhere. Point t ≥ 1 stores over its whole
  block the tile whose entry (r, k) is vals k where rows k is the word (192·t − 64) + r, and zero elsewhere; that word is
  the 32-bit word of the tail row number 192·t + r − 64, no wrap-around occurring for 1 ≤ t < 43, r < 192. So row R < 64
  of the array is row R of hb, and row 64 + r holds at column k the value vals k if rows k is the word r, else zero
  (assembled). The three input windows fetch block (0, 0), which is the whole array, at every point; every point writes
  its block back, and the 43 blocks tile the 8256 rows (row R lies in block R / 192): the array ends as that function
  (arrAt_tail).
-/
import proofs.«118274_j26998164423204_2_alg».proof.Proof.Gen.KernelIdeal.Frame
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.TailValue

open Cert.KernelIdeal Cert.KernelIdeal.Gen

section Pieces
variable {F : FTy → Type} [FloatOps F]

theorem hz : (![0, 0] : Fin 2 → Nat) = fun _ => 0 := funext fun a => by fin_cases a <;> rfl

/-- From point 1 on the body stores ONE tile over the whole block: the compare-and-select tile of the point. -/
theorem out_B (c : Dev nD) (i : grid1.Coords) (a1 : Memref sig .tc .vmem S64x8192 .f32) (h1 : a1.IsWhole)
    (a2 : Memref sig .tc .vmem S1x8192 .i32) (h2 : a2.IsWhole) (a3 : Memref sig .tc .vmem S1x8192 .f32) (h3 : a3.IsWhole)
    (a4 : Memref sig .tc .vmem S192x8192 .f32) (h4 : a4.IsWhole) (hc0 : ¬cond1_0 i) (hc1 : cond1_1 i)
    (x0 : Vec F S64x8192 .f32) (x1 : Vec F S1x8192 .i32) (x2 : Vec F S1x8192 .f32) :
    out1_B_3 c i a1 h1 a2 h2 a3 h3 a4 h4 hc0 hc1 x0 x1 x2 = k1_pay3 i x1 x2 := by
  unfold out1_B_3
  rw [View.read_writes_eq_canon _ _ _ (cover1_B_3 c i a1 h1 a2 h2 a3 h3 a4 h4 hc0 hc1 x0 x1 x2)]
  unfold kernelRun1_B
  dsimp only
  try sl_unfold_words
  rw [View.canon_unit_zero (S := S192x8192) hz]
  simp only [View.readAt_eq_ld, h2.read_unread, h3.read_unread, View.ld_unit_zero (S := S1x8192) hz]

/-- The first block: rows 0…63 hold the head-and-body block as loaded, rows 64…191 the first compare-and-select tile. -/
def tileA (x0 : Vec F S64x8192 .f32) (x1 : Vec F S1x8192 .i32) (x2 : Vec F S1x8192 .f32) : Vec F S192x8192 .f32 :=
  fun y => if h : (y 0).val < 64 then k1_pay1 x0 (ix2 ⟨(y 0).val, h⟩ ⟨(y 1).val, idx2_lt1 y⟩)
    else k1_pay2 x1 x2 (ix2 ⟨(y 0).val - 64, by have := idx2_lt0 y; omega⟩ ⟨(y 1).val, idx2_lt1 y⟩)

/-- At point 0 the body's two stores (the loaded block into rows 0…63, the first tile into rows 64…191) leave that block. -/
theorem out_A (c : Dev nD) (i : grid1.Coords) (a1 : Memref sig .tc .vmem S64x8192 .f32) (h1 : a1.IsWhole)
    (a2 : Memref sig .tc .vmem S1x8192 .i32) (h2 : a2.IsWhole) (a3 : Memref sig .tc .vmem S1x8192 .f32) (h3 : a3.IsWhole)
    (a4 : Memref sig .tc .vmem S192x8192 .f32) (h4 : a4.IsWhole) (hc0 : cond1_0 i) (hc1 : ¬cond1_1 i)
    (x0 : Vec F S64x8192 .f32) (x1 : Vec F S1x8192 .i32) (x2 : Vec F S1x8192 .f32) :
    out1_A_3 c i a1 h1 a2 h2 a3 h3 a4 h4 hc0 hc1 x0 x1 x2 = tileA x0 x1 x2 := by
  unfold out1_A_3
  rw [View.read_writes_eq_canon _ _ _ (cover1_A_3 c i a1 h1 a2 h2 a3 h3 a4 h4 hc0 hc1 x0 x1 x2)]
  funext y
  have hcov := cover1_A_3 c i a1 h1 a2 h2 a3 h3 a4 h4 hc0 hc1 x0 x1 x2 y
  revert hcov
  unfold kernelRun1_A
  dsimp only
  try sl_unfold_words
  simp only [View.readAt_eq_ld, h1.read_unread, h2.read_unread, h3.read_unread, View.ld_unit_zero (S := S1x8192) hz, View.ld_unit_zero (S := S64x8192) hz]
  intro hcov
  refine View.canon_apply_of_pieces (tileA x0 x1 x2) _ ?_ y hcov
  intro p hp
  rcases List.mem_cons.mp hp with rfl | hp
  · intro (x : S128x8192.Idx)
    show k1_pay2 x1 x2 x = tileA x0 x1 x2 _
    unfold tileA
    split
    · rename_i h
      exact absurd h (show ¬ (64 + 1 * (x 0).val < 64) by omega)
    · refine congrArg (k1_pay2 x1 x2) (funext fun a => Fin.ext ?_)
      match a with
      | ⟨0, _⟩ => show (x 0).val = 64 + 1 * (x 0).val - 64; omega
      | ⟨1, _⟩ => show (x 1).val = 0 + 1 * (x 1).val; omega
  · obtain rfl := List.mem_singleton.mp hp
    intro (x : S64x8192.Idx)
    show k1_pay1 x0 x = tileA x0 x1 x2 _
    unfold tileA
    have hx : (x 0).val < 64 := (x 0).isLt
    split
    · refine congrArg (k1_pay1 x0) (funext fun a => Fin.ext ?_)
      match a with
      | ⟨0, _⟩ => show (x 0).val = 0 + 1 * (x 0).val; omega
      | ⟨1, _⟩ => show (x 1).val = 0 + 1 * (x 1).val; omega
    · rename_i h
      exact absurd (show 0 + 1 * (x 0).val < 64 by omega) h

end Pieces

section Payloads
variable {F : FTy → Type} [FloatOps F]

/-- An [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on an equality test of two words, rewritten in its three variable places. -/
theorem select_eq_congr {α : Type} {a a' b b' : BitVec 32} {u u' : α} (v : α) (ha : a = a') (hb : b = b') (hu : u = u') :
    Scalar.select (IntOp.cmpi .eq a b) u v = Scalar.select (Scalar.cmpi .eq a' b') u' v := by
  subst ha hb hu; rfl

/-- The first tile at row r, column k: vals k where rows k is the word r, else zero. -/
theorem pay2_apply (x1 : Vec F S1x8192 .i32) (x2 : Vec F S1x8192 .f32) (r : Fin 128) (k : Fin 8192) :
    k1_pay2 x1 x2 (ix2 r k)
      = Scalar.select (Scalar.cmpi .eq (BitVec.ofNat 32 r.val) (x1 (ix2 (0 : Fin 1) k))) (x2 (ix2 (0 : Fin 1) k))
          (Scalar.ofBits .f32 0x00000000#32) := by
  unfold k1_pay2
  dsimp only
  refine select_eq_congr _ ?_ ?_ ?_
  · exact (broadcastTo_a1_ab_apply _ _ r k).trans (iota_single_apply .tc S128x1 32 0 _ (ix2 r (0 : Fin 1)))
  · exact (broadcastTo_1b_ab_apply _ _ r k).trans (congrFun (shapeCast_self x1 _) _)
  · exact (broadcastTo_1b_ab_apply _ _ r k).trans ((congrFun (shapeCast_self _ _) _).trans (congrFun (shapeCast_self x2 _) _))

/-- The tile of point i at row r, column k: the row word is the point's first tail row plus r. -/
theorem pay3_apply (i : grid1.Coords) (x1 : Vec F S1x8192 .i32) (x2 : Vec F S1x8192 .f32) (r : Fin 192) (k : Fin 8192) :
    k1_pay3 i x1 x2 (ix2 r k)
      = Scalar.select (Scalar.cmpi .eq
            (IntOp.addi (Scalar.subi (Scalar.muli (BitVec.ofNat 32 (i 0).val) 192#32) 64#32) (BitVec.ofNat 32 r.val))
            (x1 (ix2 (0 : Fin 1) k))) (x2 (ix2 (0 : Fin 1) k))
          (Scalar.ofBits .f32 0x00000000#32) := by
  unfold k1_pay3
  dsimp only
  refine select_eq_congr _ ?_ ?_ ?_
  · exact (broadcastTo_a1_ab_apply _ _ r k).trans (congrArg (IntOp.addi _) (iota_single_apply .tc S192x1 32 0 _ (ix2 r (0 : Fin 1))))
  · exact (broadcastTo_1b_ab_apply _ _ r k).trans (congrFun (shapeCast_self x1 _) _)
  · exact (broadcastTo_1b_ab_apply _ _ r k).trans ((congrFun (shapeCast_self _ _) _).trans (congrFun (shapeCast_self x2 _) _))

/-- The row word of block t ≥ 1 at row r: 192·t − 64 + r as a 32-bit word is the word of the tail row number. -/
theorem row_word (t r : Nat) (ht : 1 ≤ t) (ht' : t < 43) (hr : r < 192) :
    IntOp.addi (Scalar.subi (Scalar.muli (BitVec.ofNat 32 t) 192#32) 64#32) (BitVec.ofNat 32 r)
      = BitVec.ofNat 32 (192 * t + r - 64) := by
  apply BitVec.eq_of_toNat_eq
  simp only [IntOp.addi, Scalar.subi, Scalar.muli, IntOp.subi, IntOp.muli, BitVec.toNat_add, BitVec.toNat_sub,
    BitVec.toNat_mul, BitVec.toNat_ofNat]
  omega

/-- The head-and-body block is stored as loaded. -/
theorem pay1_eq (x0 : Vec F S64x8192 .f32) : k1_pay1 x0 = x0 := by
  unfold k1_pay1
  exact shapeCast_self x0 _

end Payloads

/-! ## The array the tail kernel leaves, index by index -/

/-- rows 0…63: the head-and-body block; row 64 + r: at column k the value vals k if rows k is the word r, else zero -/
def assembled (hb : Vec Ideal S64x8192 .f32) (rows : Vec Ideal S1x8192 .i32) (vals : Vec Ideal S1x8192 .f32) :
    Vec Ideal S8256x8192 .f32 :=
  fun i => if h : (i 0).val < 64 then hb (ix2 ⟨(i 0).val, h⟩ ⟨(i 1).val, idx2_lt1 i⟩)
    else Scalar.select (Scalar.cmpi .eq (BitVec.ofNat 32 ((i 0).val - 64)) (rows (ix2 (0 : Fin 1) ⟨(i 1).val, idx2_lt1 i⟩)))
      (vals (ix2 (0 : Fin 1) ⟨(i 1).val, idx2_lt1 i⟩)) (Ideal.ofBits .f32 0x00000000#32)

/-- The first block is rows 0…191 of the array. -/
theorem tileA_assembled (hb : Vec Ideal S64x8192 .f32) (rows : Vec Ideal S1x8192 .i32) (vals : Vec Ideal S1x8192 .f32)
    (y : S192x8192.Idx) (J : S8256x8192.Idx) (h0 : (J 0).val = (y 0).val) (h1 : (J 1).val = (y 1).val) :
    tileA (F := Ideal) hb rows vals y = assembled hb rows vals J := by
  unfold tileA assembled
  by_cases h : (y 0).val < 64
  · rw [dif_pos h, dif_pos (show (J 0).val < 64 by omega), pay1_eq]
    refine congrArg hb (funext fun a => Fin.ext ?_)
    match a with
    | ⟨0, _⟩ => exact h0.symm
    | ⟨1, _⟩ => exact h1.symm
  · rw [dif_neg h, dif_neg (show ¬ (J 0).val < 64 by omega)]
    refine (pay2_apply rows vals _ _).trans ?_
    have e0 : (y 0).val - 64 = (J 0).val - 64 := by omega
    have e1 : (⟨(y 1).val, idx2_lt1 y⟩ : Fin 8192) = ⟨(J 1).val, idx2_lt1 J⟩ := Fin.ext h1.symm
    show Scalar.select (Scalar.cmpi .eq (BitVec.ofNat 32 ((y 0).val - 64)) (rows (ix2 (0 : Fin 1) ⟨(y 1).val, idx2_lt1 y⟩)))
      (vals (ix2 (0 : Fin 1) ⟨(y 1).val, idx2_lt1 y⟩)) _ = _
    rw [e0, e1]
    rfl

/-- Block t ≥ 1 is rows 192·t … 192·t + 191 of the array. -/
theorem tileB_assembled (i : grid1.Coords) (t : Nat) (hi : (i 0).val = t) (ht : 1 ≤ t) (ht' : t < 43)
    (hb : Vec Ideal S64x8192 .f32) (rows : Vec Ideal S1x8192 .i32) (vals : Vec Ideal S1x8192 .f32)
    (y : S192x8192.Idx) (J : S8256x8192.Idx) (h0 : (J 0).val = 192 * t + (y 0).val) (h1 : (J 1).val = (y 1).val) :
    k1_pay3 (F := Ideal) i rows vals y = assembled hb rows vals J := by
  obtain ⟨r, k, rfl⟩ : ∃ (r : Fin 192) (k : Fin 8192), y = ix2 r k := ⟨y 0, y 1, eq_ix2 y⟩
  change (J 0).val = 192 * t + r.val at h0
  change (J 1).val = k.val at h1
  refine (pay3_apply i rows vals r k).trans ?_
  unfold assembled
  rw [dif_neg (show ¬ (J 0).val < 64 by omega)]
  have hw : IntOp.addi (Scalar.subi (Scalar.muli (BitVec.ofNat 32 (i 0).val) 192#32) 64#32) (BitVec.ofNat 32 r.val)
      = BitVec.ofNat 32 ((J 0).val - 64) := by
    rw [hi, row_word t r.val ht ht' r.isLt, h0]
  have e1 : k = (⟨(J 1).val, idx2_lt1 J⟩ : Fin 8192) := Fin.ext h1.symm
  rw [hw, e1]
  rfl

/-! ## The input windows fetch the whole arrays; the output's block t starts at row 192·t -/

/-- The printed index maps over the grid. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ (grid1.coords t 0).val = t.val :=
  (by decide +kernel : ∀ t : Fin grid1.N, _)

section Blocks
variable (V : (c : Dev nD) → (b : Ref sig .tc) → Buf (Elt Ideal) ((c : Thread nD τ).loc b))

/-- Window 0's block at any point is the whole head-and-body array. -/
theorem iblk_hb (c : Dev nD) (t : Fin cfg1.N) : (iblk1 V c 0 t : Vec Ideal S64x8192 .f32) = V c main_v1_0 := by
  obtain ⟨e00, e01, -⟩ := idx_facts t
  funext y
  unfold iblk1
  rw [View.read_apply]
  show V c main_v1_0 _ = V c main_v1_0 y
  refine congrArg (V c main_v1_0) (funext fun a => Fin.ext ?_)
  match a with
  | ⟨0, _⟩ => show win1_0.index t (0 : Fin 2) * 64 + 1 * (y 0).val = (y 0).val; rw [e00]; omega
  | ⟨1, _⟩ => show win1_0.index t (1 : Fin 2) * 8192 + 1 * (y 1).val = (y 1).val; rw [e01]; omega

/-- Window 1's block at any point is the whole array of row words. -/
theorem iblk_rows (c : Dev nD) (t : Fin cfg1.N) : (iblk1 V c 1 t : Vec Ideal S1x8192 .i32) = V c main_v8 := by
  obtain ⟨-, -, e10, e11, -⟩ := idx_facts t
  funext y
  unfold iblk1
  rw [View.read_apply]
  show V c main_v8 _ = V c main_v8 y
  refine congrArg (V c main_v8) (funext fun a => Fin.ext ?_)
  match a with
  | ⟨0, _⟩ => show win1_1.index t (0 : Fin 2) * 1 + 1 * (y 0).val = (y 0).val; rw [e10]; omega
  | ⟨1, _⟩ => show win1_1.index t (1 : Fin 2) * 8192 + 1 * (y 1).val = (y 1).val; rw [e11]; omega

/-- Window 2's block at any point is the whole array of values. -/
theorem iblk_vals (c : Dev nD) (t : Fin cfg1.N) : (iblk1 V c 2 t : Vec Ideal S1x8192 .f32) = V c main_v1_2 := by
  obtain ⟨-, -, -, -, e20, e21, -⟩ := idx_facts t
  funext y
  unfold iblk1
  rw [View.read_apply]
  show V c main_v1_2 _ = V c main_v1_2 y
  refine congrArg (V c main_v1_2) (funext fun a => Fin.ext ?_)
  match a with
  | ⟨0, _⟩ => show win1_2.index t (0 : Fin 2) * 1 + 1 * (y 0).val = (y 0).val; rw [e20]; omega
  | ⟨1, _⟩ => show win1_2.index t (1 : Fin 2) * 8192 + 1 * (y 1).val = (y 1).val; rw [e21]; omega

end Blocks

/-! ## From blocks to the array -/

section Final
variable (V : (c : Dev nD) → (b : Ref sig .tc) → Buf (Elt Ideal) ((c : Thread nD τ).loc b))

/-- What point t writes back is block t (rows 192·t … 192·t + 191) of the assembled array. -/
theorem flushed_eq (c : Dev nD) (t : Fin cfg1.N) :
    (dat1 (F := Ideal) V c).flushed 3 t
      = ((cfg1.win 3).blk t).view.read (Elt Ideal) (assembled (V c main_v1_0) (V c main_v8) (V c main_v1_2)) := by
  have hN : t.val < 43 := lt_of_lt_of_eq t.isLt (show cfg1.N = 43 from N_1)
  obtain ⟨-, -, -, -, -, -, e30, e31, eg⟩ := idx_facts t
  show (cfg1.win 3).cut (grid1.coords t) ((dat1 V c).after 3 t) = _
  rw [after1_3]
  by_cases h0 : t.val % 43 = 0
  · have h1 : ¬ 1 ≤ t.val := by omega
    have e := (outsAt1_A V c t h0 h1).trans (out_A c (grid1.coords t) (ms1_0 t) (hs1_0 t) (ms1_1 t) (hs1_1 t) (ms1_2 t) (hs1_2 t)
      (ms1_3 t) (hs1_3 t) ((hcond1_0 t).mpr h0) (fun h => h1 ((hcond1_1 t).mp h)) (iblk1 V c 0 t) (iblk1 V c 1 t) (iblk1 V c 2 t))
    rw [e, iblk_hb V c t, iblk_rows V c t, iblk_vals V c t]
    funext j
    rw [View.read_apply]
    show tileA _ _ _ _ = assembled _ _ _ (((cfg1.win 3).blk t).view.emb j)
    refine tileA_assembled (V c main_v1_0) (V c main_v8) (V c main_v1_2) _ _ ?_ ?_
    · show win1_3.index t (0 : Fin 2) * 192 + 1 * (j 0).val = (j 0).val
      rw [e30]; omega
    · show win1_3.index t (1 : Fin 2) * 8192 + 1 * (j 1).val = (j 1).val
      rw [e31]; omega
  · have h1 : 1 ≤ t.val := by omega
    have e := (outsAt1_B V c t h0 h1).trans (out_B c (grid1.coords t) (ms1_0 t) (hs1_0 t) (ms1_1 t) (hs1_1 t) (ms1_2 t) (hs1_2 t)
      (ms1_3 t) (hs1_3 t) (fun h => h0 ((hcond1_0 t).mp h)) ((hcond1_1 t).mpr h1) (iblk1 V c 0 t) (iblk1 V c 1 t) (iblk1 V c 2 t))
    rw [e, iblk_rows V c t, iblk_vals V c t]
    funext j
    rw [View.read_apply]
    show k1_pay3 (F := Ideal) _ _ _ _ = assembled _ _ _ (((cfg1.win 3).blk t).view.emb j)
    refine tileB_assembled (grid1.coords t) t.val eg h1 hN (V c main_v1_0) (V c main_v8) (V c main_v1_2) _ _ ?_ ?_
    · show win1_3.index t (0 : Fin 2) * 192 + 1 * (j 0).val = 192 * t.val + (j 0).val
      rw [e30]; omega
    · show win1_3.index t (1 : Fin 2) * 8192 + 1 * (j 1).val = (j 1).val
      rw [e31]; omega

/-- An index of the array is in point t's block iff each coordinate is in the block's range on its axis. -/
theorem mem_blk (t : Fin cfg1.N) (i : S8256x8192.Idx) :
    i ∈ ((cfg1.win 3).blk t).view.set ↔ ∀ a : Fin 2, win1_3.index t a * S192x8192.size a ≤ (i a).val
      ∧ (i a).val < win1_3.index t a * S192x8192.size a + S192x8192.size a := by
  show i ∈ ((View.whole main_v9).slice (win1_3.rect t)).set ↔ _
  rw [View.set_slice_whole, Rect.mem_set_unit]
  exact Iff.rfl

/-- Row R of the array lies in block R / 192: the 43 blocks of 192 rows tile the 8256 rows. -/
theorem cover (i : S8256x8192.Idx) :
    ∃ t : Fin cfg1.N, (cfg1.win 3).flush t = true ∧ i ∈ ((cfg1.win 3).blk t).view.set := by
  have hi0 : (i 0).val < 8256 := (i 0).isLt
  have hi1 : (i 1).val < 8192 := (i 1).isLt
  have hN : cfg1.N = 43 := N_1
  obtain ⟨t, ht⟩ : ∃ t : Fin cfg1.N, t.val = (i 0).val / 192 := ⟨⟨(i 0).val / 192, by rw [hN]; omega⟩, rfl⟩
  obtain ⟨-, -, -, -, -, -, e30, e31, -⟩ := idx_facts t
  refine ⟨t, flush1_3 t, ?_⟩
  rw [mem_blk]
  intro a
  match a with
  | ⟨0, _⟩ =>
    show win1_3.index t (0 : Fin 2) * 192 ≤ (i 0).val ∧ (i 0).val < win1_3.index t (0 : Fin 2) * 192 + 192
    rw [e30, ht]; omega
  | ⟨1, _⟩ =>
    show win1_3.index t (1 : Fin 2) * 8192 ≤ (i 1).val ∧ (i 1).val < win1_3.index t (1 : Fin 2) * 8192 + 8192
    rw [e31]; omega

/-- THE ARRAY the second pallas_call leaves: the assembled array of the three arrays it is entered with. -/
theorem arrAt_tail (c : Dev nD) :
    (Gen.dat1 (F := Ideal) V c).arrAt 3 cfg1.N = assembled (V c main_v1_0) (V c main_v8) (V c main_v1_2) :=
  (dat1 (F := Ideal) V c).arrAt_eq_of_cover 3 (assembled (V c main_v1_0) (V c main_v8) (V c main_v1_2))
    (fun t _ => flushed_eq V c t) cover

end Final

end Cert.KernelIdeal.TailValue

end
-- ==== Proof.LibFoldWrite.lean ====
/-
  A left fold of point writes, read at one index.

  Starting from a function x, a list of steps is folded with a step function g. Each step n has an optional target
  index tgt n; the step leaves every index other than its target as it was (`hmiss`), and writes the value val n
  at its target (`hhit`) — a plain write. Then the folded function at an index i' is decided by the steps whose
  target is i': if no step of the list targets i' the value is x i' (`foldl_write_miss`); if every step that targets
  i' is one and the same step k, and k is in the list and targets i', the value is val k (`foldl_write_hit`).
  This is what a scatter of scalar updates at pairwise distinct result indices computes, whatever the order.
-/
import Mathlib.Data.List.Basic

namespace Cert.LibFoldWrite

variable {ι κ α : Type}

/-- No step of the list targets i': the fold keeps the starting value there. -/
theorem foldl_write_miss (g : (κ → α) → ι → κ → α) (tgt : ι → Option κ)
    (hmiss : ∀ (r : κ → α) (n : ι) (i' : κ), tgt n ≠ some i' → g r n i' = r i')
    (L : List ι) (x : κ → α) (i' : κ) (h : ∀ n ∈ L, tgt n ≠ some i') : L.foldl g x i' = x i' := by
  induction L generalizing x with
  | nil => rfl
  | cons a L ih =>
    rw [List.foldl_cons, ih _ (fun n hn => h n (List.mem_cons_of_mem _ hn)), hmiss x a i' (h a List.mem_cons_self)]

/-- The only step that targets i' is k, which is in the list: the fold holds k's value there. -/
theorem foldl_write_hit (g : (κ → α) → ι → κ → α) (tgt : ι → Option κ) (val : ι → α)
    (hmiss : ∀ (r : κ → α) (n : ι) (i' : κ), tgt n ≠ some i' → g r n i' = r i')
    (hhit : ∀ (r : κ → α) (n : ι) (i' : κ), tgt n = some i' → g r n i' = val n)
    (L : List ι) (x : κ → α) (i' : κ) (k : ι) (hk : k ∈ L) (hkt : tgt k = some i')
    (hu : ∀ n ∈ L, tgt n = some i' → n = k) : L.foldl g x i' = val k := by
  induction L generalizing x with
  | nil => exact absurd hk List.not_mem_nil
  | cons a L ih =>
    rw [List.foldl_cons]
    by_cases hkL : k ∈ L
    · exact ih _ hkL (fun n hn => hu n (List.mem_cons_of_mem _ hn))
    · have hak : a = k := by
        rcases List.mem_cons.mp hk with h | h
        · exact h.symm
        · exact absurd h hkL
      rw [foldl_write_miss g tgt hmiss L _ i'
          (fun n hn e => hkL (by rw [← hu n (List.mem_cons_of_mem _ hn) e]; exact hn)),
        hak, hhit x k i' hkt]

end Cert.LibFoldWrite
-- ==== Proof.ScatterRead.lean ====
/-
  The reference's scatter, read at an index.

  The scatter writes, for each flat position n (in row-major order), the update upd n into the 8192 × 8192 operand at
  (row word of n read signed, column word of n read signed), dropping the write when that pair is outside the operand.
  When the column word of position n is n itself, column k of the result is touched by position k alone, so the entry
  at (r, k) is upd k when the row word of k is r, and the operand's entry otherwise.
-/
import proofs.«118274_j26998164423204_2_alg».proof.Proof.RefTerm
import proofs.«118274_j26998164423204_2_alg».proof.Proof.LibFoldWrite
import Idealize.ShloMosaic.Lib.ValueIdx

noncomputable section

namespace Cert.ReferenceIdeal.ScatterRead

open Idealize.ShloMosaic Idealize.ShloMosaic.ValueIdx Cert.ReferenceIdeal Cert.LibFoldWrite

attribute [local instance] Cert.ReferenceIdeal.Gen.facts

/-- The scatter's dimension record: scalar updates, both operand axes named by the index pair. -/
abbrev D := scatter_S8192x8192_S8192x2_S8192_n_01_01_1

theorem siIdx0 (n : Fin 8192) : D.siIdx (ix1 n) ⟨0, by decide⟩ = ix2 n (0 : Fin 2) := by
  funext b
  match b with
  | ⟨0, _⟩ => exact Fin.ext rfl
  | ⟨1, _⟩ => exact Fin.ext rfl

theorem siIdx1 (n : Fin 8192) : D.siIdx (ix1 n) ⟨1, by decide⟩ = ix2 n (1 : Fin 2) := by
  funext b
  match b with
  | ⟨0, _⟩ => exact Fin.ext rfl
  | ⟨1, _⟩ => exact Fin.ext rfl

/-- The window of position n starts, on the row axis, at its row word read signed. -/
theorem start0 (n : Fin 8192) (idx : IVec S8192x2 32) : D.start (ix1 n) idx 0 = (idx (ix2 n (0 : Fin 2))).toInt := by
  unfold ScatterDims.start
  rw [dif_pos (by decide)]
  exact congrArg (fun z => (idx z).toInt) (siIdx0 n)

/-- and on the column axis at its column word read signed. -/
theorem start1 (n : Fin 8192) (idx : IVec S8192x2 32) : D.start (ix1 n) idx 1 = (idx (ix2 n (1 : Fin 2))).toInt := by
  unfold ScatterDims.start
  rw [dif_pos (by decide)]
  exact congrArg (fun z => (idx z).toInt) (siIdx1 n)

/-- The updates are scalars: the window coordinate is zero on both axes. -/
theorem window0 (n : Fin 8192) (a : Fin 2) : D.window (ix1 n) a = 0 := by
  unfold ScatterDims.window
  rw [dif_neg (by revert a; decide)]

/-- Where position n lands, when it lands: column its column word, row its row word. -/
theorem resultIdx_sound (idx : IVec S8192x2 32) (n : Fin 8192) (i : S8192x8192.Idx)
    (h : D.resultIdx? (ix1 n) idx = some i) :
    ((i 1).val : Int) = (idx (ix2 n (1 : Fin 2))).toInt ∧ ((i 0).val : Int) = (idx (ix2 n (0 : Fin 2))).toInt := by
  unfold ScatterDims.resultIdx? at h
  split at h
  · next hin =>
    have hi := Option.some.inj h
    subst hi
    have h0 := (hin 0).1
    have h1 := (hin 1).1
    rw [start0, window0] at h0
    rw [start1, window0] at h1
    refine ⟨?_, ?_⟩
    · show (((D.start (ix1 n) idx 1 + (D.window (ix1 n) 1 : Nat)).toNat : Nat) : Int) = _
      rw [start1, window0]; omega
    · show (((D.start (ix1 n) idx 0 + (D.window (ix1 n) 0 : Nat)).toNat : Nat) : Int) = _
      rw [start0, window0]; omega
  · exact absurd h (by simp)

/-- Position k lands at (r, k) when its row word is r and its column word is k. -/
theorem resultIdx_complete (idx : IVec S8192x2 32) (r k : Fin 8192)
    (hrow : (idx (ix2 k (0 : Fin 2))).toInt = (r.val : Int)) (hcol : (idx (ix2 k (1 : Fin 2))).toInt = (k.val : Int)) :
    D.resultIdx? (ix1 k) idx = some (ix2 r k) := by
  have hr := r.isLt
  have hk := k.isLt
  unfold ScatterDims.resultIdx?
  rw [dif_pos (fun a => by
    match a with
    | ⟨0, _⟩ =>
      show 0 ≤ D.start (ix1 k) idx 0 + (D.window (ix1 k) 0 : Nat) ∧ D.start (ix1 k) idx 0 + (D.window (ix1 k) 0 : Nat) < (8192 : Nat)
      rw [start0, window0, hrow]; omega
    | ⟨1, _⟩ =>
      show 0 ≤ D.start (ix1 k) idx 1 + (D.window (ix1 k) 1 : Nat) ∧ D.start (ix1 k) idx 1 + (D.window (ix1 k) 1 : Nat) < (8192 : Nat)
      rw [start1, window0, hcol]; omega)]
  refine congrArg some (funext fun a => Fin.ext ?_)
  match a with
  | ⟨0, _⟩ =>
    show (D.start (ix1 k) idx 0 + (D.window (ix1 k) 0 : Nat)).toNat = r.val
    rw [start0, window0, hrow]; omega
  | ⟨1, _⟩ =>
    show (D.start (ix1 k) idx 1 + (D.window (ix1 k) 1 : Nat)).toNat = k.val
    rw [start1, window0, hcol]; omega

/-- A flat position of the updates, as an index. -/
theorem pos_eq (n : Fin S8192.numel) : ∃ p : Fin 8192, S8192.rowMajor.symm n = ix1 p ∧ p.val = n.val := by
  refine ⟨(S8192.rowMajor.symm n) 0, eq_ix1 _, ?_⟩
  have := Shape.rowMajor_val_one (S8192.rowMajor.symm n)
  rw [Equiv.apply_symm_apply] at this
  exact this.symm

/-- The scatter at (r, k), when every position's column word is the position itself. -/
theorem scatter_apply {α : Type} (idx : IVec S8192x2 32) (upd : S8192.Idx → α) (x0 : S8192x8192.Idx → α)
    (hcol : ∀ n : Fin 8192, (idx (ix2 n (1 : Fin 2))).toInt = (n.val : Int)) (r k : Fin 8192) :
    Host.scatter D (fun _ b => b) x0 idx upd (ix2 r k)
      = if (idx (ix2 k (0 : Fin 2))).toInt = (r.val : Int) then upd (ix1 k) else x0 (ix2 r k) := by
  unfold Host.scatter
  by_cases hrow : (idx (ix2 k (0 : Fin 2))).toInt = (r.val : Int)
  · rw [if_pos hrow]
    have hkn : k.val < S8192.numel := k.isLt
    have hsymm : S8192.rowMajor.symm ⟨k.val, hkn⟩ = ix1 k := by
      obtain ⟨p, hp, hpv⟩ := pos_eq ⟨k.val, hkn⟩
      rw [hp]; exact congrArg ix1 (Fin.ext hpv)
    refine (foldl_write_hit _ (fun n => D.resultIdx? (S8192.rowMajor.symm n) idx) (fun n => upd (S8192.rowMajor.symm n))
      ?_ ?_ _ x0 (ix2 r k) ⟨k.val, hkn⟩ (List.mem_finRange _) ?_ ?_).trans ?_
    · intro f n i' h
      generalize D.resultIdx? (S8192.rowMajor.symm n) idx = o at h ⊢
      cases o with
      | none => rfl
      | some i =>
        have hne : i' ≠ i := fun e => h (by rw [e])
        show (if i' = i then _ else f i') = f i'
        rw [if_neg hne]
    · intro f n i' h
      generalize D.resultIdx? (S8192.rowMajor.symm n) idx = o at h ⊢
      cases o with
      | none => exact absurd h (by simp)
      | some i =>
        have he : i' = i := (Option.some.inj h).symm
        show (if i' = i then _ else f i') = _
        rw [if_pos he]
    · show D.resultIdx? (S8192.rowMajor.symm ⟨k.val, hkn⟩) idx = some (ix2 r k)
      rw [hsymm]; exact resultIdx_complete idx r k hrow (hcol k)
    · intro n _ hn
      obtain ⟨p, hp, hpv⟩ := pos_eq n
      have hn' : D.resultIdx? (ix1 p) idx = some (ix2 r k) := by rw [← hp]; exact hn
      have h1 := (resultIdx_sound idx p _ hn').1
      rw [hcol p] at h1
      have h1' : (k.val : Int) = (p.val : Int) := h1
      exact Fin.ext (by show n.val = k.val; omega)
    · show upd (S8192.rowMajor.symm ⟨k.val, hkn⟩) = upd (ix1 k)
      rw [hsymm]
  · rw [if_neg hrow]
    refine foldl_write_miss _ (fun n => D.resultIdx? (S8192.rowMajor.symm n) idx) ?_ _ x0 (ix2 r k) fun n _ hn => ?_
    · intro f n i' h
      generalize D.resultIdx? (S8192.rowMajor.symm n) idx = o at h ⊢
      cases o with
      | none => rfl
      | some i =>
        have hne : i' ≠ i := fun e => h (by rw [e])
        show (if i' = i then _ else f i') = f i'
        rw [if_neg hne]
    · obtain ⟨p, hp, hpv⟩ := pos_eq n
      have hn' : D.resultIdx? (ix1 p) idx = some (ix2 r k) := by rw [← hp]; exact hn
      obtain ⟨h1, h0⟩ := resultIdx_sound idx p _ hn'
      rw [hcol p] at h1
      have hpk : p = k := Fin.ext (by
        have h1' : (k.val : Int) = (p.val : Int) := h1
        omega)
      subst hpk
      exact hrow h0.symm

end Cert.ReferenceIdeal.ScatterRead

end
-- ==== Proof.TailR.lean ====
/-
  The reference's tail, read at an index.

  The tail is the scatter of the values updates x into the zero array [8192, 8192] at the index pairs
  (wrap of the target row of n, wrap of n), n a flat position, where the wrap adds 8192 to a negative word. The position
  word n < 8192 is not negative and reads signed as n, so the wrap leaves it and column k is touched by position k
  alone. The target row is a word clipped (signed) to [0, 8191], so the wrap leaves it too; and a word ρ in that range
  reads signed as r < 8192 exactly when it is the 32-bit word of r. Hence the entry at (r, k) is updates x k where the
  word of r equals rows x k, and zero elsewhere: the select on that equality test (tail_apply).
-/
import proofs.«118274_j26998164423204_2_alg».proof.Proof.ScatterRead
import Idealize.ShloMosaic.Lib.Pipeline.Value
import Idealize.ShloMosaic.Lib.IdealHost

noncomputable section

namespace Cert.ReferenceIdeal.TailR

open Idealize.ShloMosaic Idealize.ShloMosaic.ValueIdx Cert.ReferenceIdeal
open Cert.ReferenceIdeal.Facts₀

attribute [local instance] Cert.ReferenceIdeal.Gen.facts

/-! ## 32-bit words read signed -/

/-- A 32-bit word read signed is r < 8192 exactly when it is the word of r. -/
theorem toInt_eq_iff (ρ : BitVec 32) (r : Nat) (hr : r < 8192) : ρ.toInt = (r : Int) ↔ BitVec.ofNat 32 r = ρ := by
  have hρ : ρ.toNat < 2 ^ 32 := ρ.isLt
  constructor
  · intro h
    apply BitVec.eq_of_toNat_eq
    rw [BitVec.toNat_ofNat]
    rw [BitVec.toInt_eq_toNat_cond] at h
    split at h <;> omega
  · intro h
    subst h
    rw [BitVec.toInt_eq_toNat_cond, BitVec.toNat_ofNat]
    split <;> omega

/-- The word of n < 8192 read signed is n. -/
theorem toInt_small (n : Nat) (hn : n < 8192) : (BitVec.ofNat 32 n).toInt = (n : Int) :=
  (toInt_eq_iff _ n hn).mpr rfl

/-! ## The clip and the wrap at an index -/

/-- The clip at an index: the signed minimum with 8191 of the signed maximum with 0. -/
theorem clipRows_apply (v : IVec S8192 32) (j : S8192.Idx) :
    RefTerm.clipRows v j = IntOp.minsi 8191#32 (IntOp.maxsi 0#32 (v j)) := by
  unfold RefTerm.clipRows
  show IntOp.minsi (broadcastInDim S8192 ![] bcast_S_S8192 (id (constantI S_ 32 8191#32)) j)
    (IntOp.maxsi (broadcastInDim S8192 ![] bcast_S_S8192 (id (constantI S_ 32 0#32)) j) (v j)) = _
  rw [broadcastInDim_scalar_apply, broadcastInDim_scalar_apply]
  rfl

/-- Every clipped word, read signed, lies in [0, 8191]. -/
theorem clip_range (v : IVec S8192 32) (j : S8192.Idx) :
    0 ≤ (RefTerm.clipRows v j).toInt ∧ (RefTerm.clipRows v j).toInt ≤ 8191 := by
  rw [clipRows_apply]
  have h0 : (0#32 : BitVec 32).toInt = 0 := BitVec.toInt_zero
  have h1 : (8191#32 : BitVec 32).toInt = 8191 := toInt_small 8191 (by omega)
  have hm : 0 ≤ (IntOp.maxsi 0#32 (v j)).toInt := by
    unfold IntOp.maxsi
    split
    · rw [h0]
    · rename_i h
      rw [BitVec.slt_iff_toInt_lt, h0] at h
      omega
  generalize IntOp.maxsi 0#32 (v j) = m at hm ⊢
  unfold IntOp.minsi
  split
  · rw [h1]; omega
  · rename_i h
    rw [BitVec.slt_iff_toInt_lt, h1] at h
    omega

/-- The wrap leaves a word that is not negative. -/
theorem wrapNeg_of_nonneg (v : IVec S8192 32) (j : S8192.Idx) (h : 0 ≤ (v j).toInt) : RefTerm.wrapNeg v j = v j := by
  unfold RefTerm.wrapNeg
  show Scalar.select (IntOp.cmpi .slt (v j) (broadcastInDim S8192 ![] bcast_S_S8192 (constantI S_ 32 0#32) j)) _ (v j) = v j
  rw [broadcastInDim_scalar_apply]
  show Scalar.select (BitVec.ofBool ((v j).slt 0#32)) _ (v j) = v j
  have hs : (v j).slt 0#32 = false := by
    rw [BitVec.slt_eq_decide, BitVec.toInt_zero]
    exact decide_eq_false (by omega)
  rw [hs, BitVec.ofBool_false]
  exact select_zero _ _

/-! ## The index pairs -/

/-- The row word of position n in the index pairs. -/
theorem scatterIdx_row (x : FVec Ideal S64x8x32x32 .f32) (n : Fin 8192) :
    RefTerm.scatterIdx (F := Ideal) x (ix2 n (0 : Fin 2)) = RefTerm.wrapNeg (RefTerm.rows (F := Ideal) x) (ix1 n) := by
  unfold RefTerm.scatterIdx
  refine (concatenate_pair_apply_left (t := S8192x2) (s₁ := S8192x1) (s₂ := S8192x1) 1 _ _ _ (ix2 n (0 : Fin 2)) rfl
    (ix2 n (0 : Fin 1)) (fun b => by
      match b with
      | ⟨0, _⟩ => rfl
      | ⟨1, _⟩ => rfl)).trans ?_
  exact broadcastInDim_apply _ _ _ (ix2 n (0 : Fin 1)) (ix1 n) (fun a => by
    match a with
    | ⟨0, _⟩ => rfl)

/-- The column word of position n in the index pairs. -/
theorem scatterIdx_col (x : FVec Ideal S64x8x32x32 .f32) (n : Fin 8192) :
    RefTerm.scatterIdx (F := Ideal) x (ix2 n (1 : Fin 2)) = RefTerm.wrapNeg (iotaInDim S8192 32 0) (ix1 n) := by
  unfold RefTerm.scatterIdx
  refine (concatenate_pair_apply_right (t := S8192x2) (s₁ := S8192x1) (s₂ := S8192x1) 1 _ _ _ (ix2 n (1 : Fin 2)) rfl rfl
    (ix2 n (0 : Fin 1)) (fun b hb => by
      match b with
      | ⟨0, _⟩ => rfl
      | ⟨1, _⟩ => exact absurd rfl hb) rfl).trans ?_
  exact broadcastInDim_apply _ _ _ (ix2 n (0 : Fin 1)) (ix1 n) (fun a => by
    match a with
    | ⟨0, _⟩ => rfl)

/-- The column word of position n, read signed, is n. -/
theorem scatterIdx_col_toInt (x : FVec Ideal S64x8x32x32 .f32) (n : Fin 8192) :
    (RefTerm.scatterIdx (F := Ideal) x (ix2 n (1 : Fin 2))).toInt = (n.val : Int) := by
  have e : iotaInDim S8192 32 0 (ix1 n) = BitVec.ofNat 32 n.val := rfl
  have hn := toInt_small n.val n.isLt
  rw [scatterIdx_col, wrapNeg_of_nonneg _ _ (by rw [e, hn]; omega), e, hn]

/-- The row word of position n is its target tail row, a word in [0, 8191]. -/
theorem scatterIdx_row_eq (x : FVec Ideal S64x8x32x32 .f32) (n : Fin 8192) :
    RefTerm.scatterIdx (F := Ideal) x (ix2 n (0 : Fin 2)) = RefTerm.rows (F := Ideal) x (ix1 n) := by
  rw [scatterIdx_row]
  refine wrapNeg_of_nonneg _ _ ?_
  unfold RefTerm.rows
  exact (clip_range _ _).1

/-! ## The tail at an index -/

/-- The tail at row r, column k: the value of position k where its target row is r, zero elsewhere. -/
theorem tail_apply (x : FVec Ideal S64x8x32x32 .f32) (r k : Fin 8192) :
    RefTerm.tail (F := Ideal) x (ix2 r k)
      = Scalar.select (Scalar.cmpi .eq (BitVec.ofNat 32 r.val) (RefTerm.rows (F := Ideal) x (ix1 k)))
          (RefTerm.updates (F := Ideal) x (ix1 k)) (Ideal.ofBits .f32 0x00000000#32) := by
  unfold RefTerm.tail
  refine (ScatterRead.scatter_apply _ _ _ (scatterIdx_col_toInt x) r k).trans ?_
  rw [scatterIdx_row_eq, broadcastInDim_scalar_apply]
  show (if _ then _ else Ideal.ofBits .f32 0x00000000#32) = Scalar.select (BitVec.ofBool (BitVec.ofNat 32 r.val == RefTerm.rows (F := Ideal) x (ix1 k))) _ _
  by_cases h : BitVec.ofNat 32 r.val = RefTerm.rows (F := Ideal) x (ix1 k)
  · rw [if_pos ((toInt_eq_iff _ r.val r.isLt).mpr h), beq_iff_eq.mpr h, BitVec.ofBool_true]
    exact (select_one _ _).symm
  · rw [if_neg (fun e => h ((toInt_eq_iff _ r.val r.isLt).mp e)), beq_eq_false_iff_ne.mpr h, BitVec.ofBool_false]
    exact (select_zero _ _).symm

end Cert.ReferenceIdeal.TailR

end
-- ==== Proof.Bridge.lean ====
/-
  The two results are one function of the argument, when its entries are real numbers.

  The kernel program reshapes the argument x to X = [64, 8192], computes from X the head-and-body block, the crossing
  mask and the scattered values, turns the mask into target rows, assembles the [8256, 8192] output and reshapes it back.
  Column k = flat position of (c, h, w) of X is the argument's column at (c, h, w). At the index (R, c, h, w):
  row 0 is the new centre and rows 1…63 the scaled error terms of that column, in the two spellings of the slope,
  which agree on a real column; row 64 + r is the scattered value of the column where its target row is r and zero
  elsewhere, on both sides, the target rows being the same function (an inclusive prefix sum, minus one, clipped)
  of the same 0/1 words: the kernel converts the float mask 1 or 0 to a word, the reference widens the bit "mask > 0".
-/
import proofs.«118274_j26998164423204_2_alg».proof.Proof.ColumnK
import proofs.«118274_j26998164423204_2_alg».proof.Proof.ColumnR
import proofs.«118274_j26998164423204_2_alg».proof.Proof.RefValue
import proofs.«118274_j26998164423204_2_alg».proof.Proof.TailValue
import proofs.«118274_j26998164423204_2_alg».proof.Proof.TailR
import proofs.«118274_j26998164423204_2_alg».proof.Proof.KernelRun

noncomputable section

namespace Cert.Proof.Bridge

open Idealize.ShloMosaic Idealize.ShloMosaic.ValueIdx Cert.Zono
open Cert.KernelIdeal.Gen (k0_pay1 k0_pay7 k0_pay10 k0_pay11)
open Cert.ReferenceIdeal.ColumnR (fl fl_surj)

/-- The kernel program's result as a pure function of the reshaped argument. -/
def kernelResult (X : FVec Ideal Cert.KernelIdeal.S64x8192 .f32) : FVec Ideal Cert.KernelIdeal.S8256x8x32x32 .f32 :=
  shapeCast Cert.KernelIdeal.S8256x8x32x32
    (Cert.KernelIdeal.TailValue.assembled (k0_pay11 (F := Ideal) X) (Cert.KernelIdeal.KRun.rowsOf (k0_pay7 (F := Ideal) X))
      (k0_pay1 (F := Ideal) (k0_pay7 (F := Ideal) X) (k0_pay10 (F := Ideal) X)))

variable (x : FVec Ideal Cert.ReferenceIdeal.S64x8x32x32 .f32)

/-- The argument reshaped to 64 rows of 8192 lanes. -/
abbrev flat2 : FVec Ideal Cert.KernelIdeal.S64x8192 .f32 := shapeCast Cert.KernelIdeal.S64x8192 x

/-- Column (flat position of (c, h, w)) of the reshaped argument is the argument's column at (c, h, w). -/
theorem col_eq (c : Fin 8) (h w : Fin 32) :
    Cert.KernelIdeal.ColumnK.colOf (flat2 x) (fl c h w) = Cert.ReferenceIdeal.ColumnR.colOf x c h w := by
  funext i
  exact shapeCast_apply x _ (ix2 i (fl c h w)) (ix4 i c h w) (by
    rw [Shape.rowMajor_val_two, Shape.rowMajor_val_four]
    show ((i.val * 8 + c.val) * 32 + h.val) * 32 + w.val = i.val * 8192 + ((c.val * 32 + h.val) * 32 + w.val)
    omega)

/-- The float mask 1 or 0 converted to a word is the bit "mask > 0" widened. -/
theorem word_of_mask (l u : EReal) :
    Ideal.fptosi 32 (crossS l u) = (FloatOps.cmpf (F := Ideal) (φ := .f32) .ogt (crossS l u) Z32).setWidth 32 := by
  show _ = (BitVec.ofBool (decide (Z32 < crossS l u))).setWidth 32
  rw [Z32_eq]
  unfold crossS
  split
  · rw [decide_eq_true (by exact_mod_cast (zero_lt_one : (0 : ℝ) < 1))]
    show BitVec.ofInt 32 (Ideal.toIntClamped _ _ ((1 : ℝ) : EReal)) = _
    rw [Ideal.toIntClamped_coe]
    norm_num
    decide
  · rw [decide_eq_false (by exact_mod_cast (lt_irrefl (0 : ℝ)))]
    show BitVec.ofInt 32 (Ideal.toIntClamped _ _ ((0 : ℝ) : EReal)) = _
    rw [Ideal.toIntClamped_coe]
    norm_num
    decide

/-- The 0/1 words the two programs sum are the same array. -/
theorem words_eq :
    (fptosi 32 (shapeCast Cert.KernelIdeal.S8192 (k0_pay7 (F := Ideal) (flat2 x)) Cert.KernelIdeal.Facts₀.shapeCasts_S1x8192_S8192) : IVec Cert.KernelIdeal.S8192 32)
      = extui 32 (Cert.ReferenceIdeal.RefTerm.flatCond x) Cert.ReferenceIdeal.Facts₀.natLt_1_32 := by
  funext j
  rw [eq_ix1 j]
  obtain ⟨c, h, w, hk⟩ := fl_surj (j 0)
  rw [hk]
  show Ideal.fptosi 32 (shapeCast Cert.KernelIdeal.S8192 (k0_pay7 (F := Ideal) (flat2 x)) _ (ix1 (fl c h w)))
    = (Cert.ReferenceIdeal.RefTerm.flatCond x (ix1 (fl c h w))).setWidth 32
  rw [shapeCast_1a_a_apply, Cert.KernelIdeal.ColumnK.cross_col, Cert.ReferenceIdeal.ColumnR.flatCond_apply, col_eq]
  exact word_of_mask _ _

/-- The target rows are the same words on both sides. -/
theorem rows_eq (k : Fin 8192) :
    Cert.KernelIdeal.KRun.rowsOf (k0_pay7 (F := Ideal) (flat2 x)) (ix2 (0 : Fin 1) k) = Cert.ReferenceIdeal.RefTerm.rows x (ix1 k) := by
  unfold Cert.KernelIdeal.KRun.rowsOf
  rw [shapeCast_a_1a_apply, words_eq]
  rfl

/-- On a real argument the kernel program's result is the reference's. -/
theorem result_eq (hreal : ∀ i, ∃ v : ℝ, x i = v) :
    kernelResult (flat2 x) = Cert.ReferenceIdeal.RefTerm.result x := by
  funext J
  obtain ⟨R, c, h, w, rfl⟩ : ∃ (R : Fin 8256) (c : Fin 8) (h w : Fin 32), J = ix4 R c h w := ⟨J 0, J 1, J 2, J 3, eq_ix4 J⟩
  have hcol : ∀ i, ∃ v : ℝ, Cert.ReferenceIdeal.ColumnR.colOf x c h w i = v := fun i => hreal _
  obtain ⟨hhead, hbody, hval⟩ := column_eq (Cert.ReferenceIdeal.ColumnR.colOf x c h w) hcol
  unfold kernelResult
  rw [shapeCast_apply _ _ (ix4 R c h w) (ix2 R (fl c h w)) (by
    rw [Shape.rowMajor_val_two, Shape.rowMajor_val_four]
    show R.val * 8192 + ((c.val * 32 + h.val) * 32 + w.val) = ((R.val * 8 + c.val) * 32 + h.val) * 32 + w.val
    omega)]
  unfold Cert.KernelIdeal.TailValue.assembled
  by_cases hlt : R.val < 64
  · have hlt' : ((ix2 R (fl c h w) : Cert.KernelIdeal.S8256x8192.Idx) 0).val < 64 := hlt
    rw [dif_pos hlt']
    by_cases h0 : R.val = 0
    · have hR : R = (0 : Fin 8256) := Fin.ext h0
      subst hR
      rw [Cert.ReferenceIdeal.RefValue.result_head, Cert.ReferenceIdeal.ColumnR.head_apply, ← hhead, ← col_eq]
      exact Cert.KernelIdeal.ColumnK.head_col (flat2 x) (fl c h w)
    · have hi : R.val - 1 < 63 := by omega
      rw [Cert.ReferenceIdeal.RefValue.result_body x c h w ⟨R.val - 1, hi⟩ R (by show R.val = R.val - 1 + 1; omega),
        Cert.ReferenceIdeal.ColumnR.body_apply, ← hbody, ← col_eq]
      refine Eq.trans (congrArg (k0_pay11 (F := Ideal) (flat2 x)) ?_) (Cert.KernelIdeal.ColumnK.body_col (flat2 x) ⟨R.val - 1, hi⟩ (fl c h w))
      funext a
      match a with
      | ⟨0, _⟩ => exact Fin.ext (by show R.val = R.val - 1 + 1; omega)
      | ⟨1, _⟩ => rfl
  · have hlt' : ¬ ((ix2 R (fl c h w) : Cert.KernelIdeal.S8256x8192.Idx) 0).val < 64 := hlt
    rw [dif_neg hlt']
    have hr : R.val - 64 < 8192 := by have := R.isLt; omega
    rw [Cert.ReferenceIdeal.RefValue.result_tail x c h w ⟨R.val - 64, hr⟩ R (by show R.val = R.val - 64 + 64; omega),
      Cert.ReferenceIdeal.TailR.tail_apply, Cert.ReferenceIdeal.ColumnR.updates_apply, ← hval, ← col_eq,
      ← Cert.KernelIdeal.ColumnK.val_col (flat2 x) (0 : Fin 1) (fl c h w), ← rows_eq]

end Cert.Proof.Bridge

end
-- ==== Proof.LibFiniteEntries.lean ====
/-
  Real entries from a finiteness test, at the ideal values.

  A precondition "every float input is finite" is printed, per argument, as: the absolute value of the array, compared
  entry by entry below the bit pattern of plus infinity broadcast from a scalar, the bits then reduced by conjunction
  to one bit. At the ideal values an entry is an extended real, its absolute value is max x (-x), and the pattern
  0x7F800000 denotes plus infinity; max x (-x) < plus infinity fails exactly at the two infinities. So where the
  reduced bit is one, every entry of the array is a real number, whatever the array's shape.
-/
import Idealize.ShloMosaic.PureOps.Ideal
import Idealize.ShloMosaic.Lib.ValueIdx
import Idealize.ShloMosaic.Lib.ReduceAll

noncomputable section

namespace Cert.LibFiniteEntries

open Idealize.ShloMosaic Idealize.ShloMosaic.ValueIdx

/-- The rank-0 shape has one index. -/
instance subsingleton_scalar_idx : Subsingleton (⟨0, ![]⟩ : Shape).Idx := ⟨fun a b => funext fun d => d.elim0⟩

/-- The f32 bit pattern 0x7F800000 denotes plus infinity. -/
theorem inf_pattern_f32 : Ideal.ofBits .f32 0x7F800000#32 = ⊤ := by simp [Ideal.ofBits, Ideal.ieee]

/-- An extended real whose absolute value max x (-x) compares below plus infinity is a real number. -/
theorem real_of_abs_lt_inf (x : EReal)
    (h : Ideal.cmp .olt (max x (-x)) (Ideal.ofBits .f32 0x7F800000#32) = 1#1) : ∃ v : ℝ, x = v := by
  rw [inf_pattern_f32] at h
  induction x using EReal.rec with
  | bot => simp [Ideal.cmp] at h
  | top => simp [Ideal.cmp] at h
  | coe r => exact ⟨r, rfl⟩

/-- The printed test of one argument: if the conjunction, over every entry of an f32 array of any shape, of
    "absolute value below the plus-infinity pattern" is one, every entry is a real number. -/
theorem real_entries_of_all_lt_inf {s : Shape} {axes : List (Fin s.rank)} (a : FVec Ideal s .f32)
    (hb : (⟨0, ![]⟩ : Shape).BroadcastsInDim s (![] : Fin 0 → Fin s.rank))
    (h : s.ReducesTo axes ⟨0, ![]⟩) (hu : 0 < (⟨0, ![]⟩ : Shape).numel) (init : (⟨0, ![]⟩ : Shape).Idx → BitVec 1)
    (e : Host.reduce IntOp.andi
        (cmpf .olt (Host.absf a) (broadcastInDim s ![] hb (constant (F := Ideal) ⟨0, ![]⟩ .f32 0x7F800000#32))) init h hu ix0 = 1#1)
    (i : s.Idx) : ∃ v : ℝ, a i = v :=
  real_of_abs_lt_inf (a i) (Host.reduce_andi_all _ _ _ _ ix0 e i)

end Cert.LibFiniteEntries

end
-- ==== Proof.Finite.lean ====
/-
  Real entries from the precondition: where the printed finiteness test of the argument array is one, every entry of the
  array is a real number.
-/
import proofs.«118274_j26998164423204_2_alg».proof.Pre_finite_inputs
import proofs.«118274_j26998164423204_2_alg».proof.Proof.Gen.Pre_finite_inputs
import proofs.«118274_j26998164423204_2_alg».proof.Proof.LibFiniteEntries

noncomputable section

namespace Cert.Proof.Finite

open Idealize.ShloMosaic Idealize.ShloMosaic.ValueIdx

/-- Under the finiteness test every entry of the argument is a real number. -/
theorem real_of_pre (a : FVec Ideal Cert.Pre_finite_inputs.S64x8x32x32 .f32)
    (hp : Cert.Pre_finite_inputs.fn (F := Ideal) a = fun _ => 1#1) (i : Cert.Pre_finite_inputs.S64x8x32x32.Idx) :
    ∃ v : ℝ, a i = v := by
  have e : Cert.Pre_finite_inputs.fn (F := Ideal) a ix0 = 1#1 := congrFun hp ix0
  dsimp only [Cert.Pre_finite_inputs.fn] at e
  exact Cert.LibFiniteEntries.real_entries_of_all_lt_inf a _ _ _ _ e i

end Cert.Proof.Finite

end
-- ==== Proof.lean ====
/-
  The proof of `Cert.Claim`: the three programs run and keep their argument, and at the ideal values the kernel
  program and the reference compute one function of the argument.

  The mathematics. The argument x : [64, 8, 32, 32] is, per content position k = (c, h, w), a column: x(0, k) a centre
  and x(1…63, k) error terms. With radius e = Σ |x(i, k)|, bounds u = x(0, k) + e and l = x(0, k) − e, crossing mask
  cross = [l·u < 0], nonnegative mask [0 ≤ l], a slope lam and the new error magnitude delta = max(−lam·l, (1 − lam)·u), the
  result [8256, 8, 32, 32] holds in row 0 the new centre (delta/2 + lam·x(0, k))·cross + x(0, k)·[0 ≤ l], in rows 1…63 the error
  terms scaled by lam·cross + [0 ≤ l], and in row 64 + r the value delta/2 of every crossing position whose rank among the
  crossing positions (in flat order) is r + 1, zero elsewhere.
  The reference takes lam = [0 ≤ l] + (cross·u)/(u − l); the kernel takes lam = [0 ≤ l] + cross·(u/(u − l)) off u = l and 1/2 on u = l.
  For a REAL column (the precondition: every input finite) these give the same result: off u = l the two slopes are one
  number; on u = l the bounds do not cross (l·u is a square), and every use of lam is multiplied by cross = 0 or selected
  on cross > 0, so the result does not depend on lam (the reference's slope is junk there, the quotient 0/0).
  The rank is computed by both programs as the same windowed integer sum over the same 0/1 words, minus one, clipped to
  [0, 8191]; the reference then scatters the values at (rank, position), the kernel compares a row number with the rank
  and selects: for pairwise distinct columns the scatter at (r, k) is the value of k where k's rank is r.

  The parts: ZonoScalar, ZonoColumn, ZonoWords (the scalar mathematics); ColumnK, ColumnR (each program's arrays at a
  column); LibFoldWrite, ScatterRead, TailR (the scatter read at an index); TailValue (the second kernel's output array
  from its blocks); KernelRun, RefRun (the two programs' runs with their results named); RefValue, Bridge (the two results
  index by index); Finite (real entries from the precondition).
-/
import proofs.«118274_j26998164423204_2_alg».proof.Defs
import proofs.«118274_j26998164423204_2_alg».proof.Proof.Gen.Kernel
import proofs.«118274_j26998164423204_2_alg».proof.Proof.Gen.Kernel.Skeleton
import proofs.«118274_j26998164423204_2_alg».proof.Proof.Gen.Kernel.Launch
import proofs.«118274_j26998164423204_2_alg».proof.Proof.Gen.Kernel.Points
import proofs.«118274_j26998164423204_2_alg».proof.Proof.Gen.Kernel.Frame
import proofs.«118274_j26998164423204_2_alg».proof.Proof.Gen.KernelIdeal
import proofs.«118274_j26998164423204_2_alg».proof.Proof.Gen.KernelIdeal.Skeleton
import proofs.«118274_j26998164423204_2_alg».proof.Proof.Gen.KernelIdeal.Launch
import proofs.«118274_j26998164423204_2_alg».proof.Proof.Gen.KernelIdeal.Points
import proofs.«118274_j26998164423204_2_alg».proof.Proof.Gen.KernelIdeal.Frame
import proofs.«118274_j26998164423204_2_alg».proof.Proof.Gen.ReferenceIdeal
import proofs.«118274_j26998164423204_2_alg».proof.Proof.Gen.Pre_finite_inputs
import proofs.«118274_j26998164423204_2_alg».proof.Proof.KernelRun
import proofs.«118274_j26998164423204_2_alg».proof.Proof.RefRun
import proofs.«118274_j26998164423204_2_alg».proof.Proof.Bridge
import proofs.«118274_j26998164423204_2_alg».proof.Proof.Finite
import Idealize.ShloMosaic.Adequacy
import Idealize.ShloMosaic.Init

noncomputable section

namespace Cert.Proof

open Idealize.ShloMosaic Idealize.SL.Sem

/-- The word-level kernel program runs and keeps its argument. -/
theorem frame_kernel : Cert.frame_Kernel := fun m ρ _ => Cert.Kernel.Gen.frame m ρ

/-- The idealized kernel program runs and keeps its argument. -/
theorem frame_kernelIdeal : Cert.frame_KernelIdeal := fun m ρ _ => Cert.KernelIdeal.Gen.frame m ρ

/-- The reference runs and keeps its argument: its run with the result dropped. -/
theorem frame_reference : Cert.frame_ReferenceIdeal := fun m ρ _ =>
  (θ_run Cert.ReferenceIdeal.defs _ _).mono (fun _ h c => (h c).2) (Cert.ReferenceIdeal.RefRun.run m ρ)

/-- The idealization rewrote nothing. -/
theorem preserves : Cert.preserves_Kernel_KernelIdeal := trivial

/-- From memories agreeing on the argument, whose entries are real numbers, both programs end at the reference's
    function of the argument. -/
theorem algebraic : Cert.algebraic_KernelIdeal_ReferenceIdeal := by
  intro m ρ m' ρ' hpre hagree
  refine ⟨fun c => Cert.ReferenceIdeal.RefTerm.result (F := Ideal)
    (m' ((c.tc : Thread Cert.ReferenceIdeal.nD Cert.ReferenceIdeal.τ).loc Cert.ReferenceIdeal.main_arg0)), ?_, ?_⟩
  · refine (θ_run Cert.KernelIdeal.defs _ _).mono (fun r h c => ⟨(h c).1.trans ?_, (h c).2⟩) (Cert.KernelIdeal.KRun.run m ρ)
    rw [Cert.KernelIdeal.TailValue.arrAt_tail, Cert.KernelIdeal.KRun.entry_headbody, Cert.KernelIdeal.KRun.entry_rows,
      Cert.KernelIdeal.KRun.entry_vals]
    show _ = Cert.ReferenceIdeal.RefTerm.result (F := Ideal)
      (m' ((c.tc : Thread Cert.ReferenceIdeal.nD Cert.ReferenceIdeal.τ).loc Cert.ReferenceIdeal.main_arg0))
    rw [hagree c]
    exact Cert.Proof.Bridge.result_eq (m ((c.tc : Thread Cert.KernelIdeal.nD Cert.KernelIdeal.τ).loc Cert.KernelIdeal.main_arg0))
      (fun i => Cert.Proof.Finite.real_of_pre _ (hpre c) i)
  · exact (θ_run Cert.ReferenceIdeal.defs _ _).mono (fun r h c => ⟨(h c).1, (h c).2⟩) (Cert.ReferenceIdeal.RefRun.run m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
